-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2048x1024 : Shape := ⟨2, ![2048, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S512x1024 : Shape := ⟨2, ![512, 1024]⟩
abbrev S512x3072 : Shape := ⟨2, ![512, 3072]⟩
abbrev S1x3072 : Shape := ⟨2, ![1, 3072]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 18
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S3072x1024, .f32⟩
  | .hbm, ⟨10, _⟩ => ⟨S3072x1024, .bf16⟩
  | .hbm, ⟨11, _⟩ => ⟨S3072, .f32⟩
  | .hbm, ⟨12, _⟩ => ⟨S1024x1024, .bf16⟩
  | .hbm, ⟨13, _⟩ => ⟨S2048x1024, .bf16⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S2048x1024, .bf16⟩
  | .local _ .vmem, ⟨13, _⟩ => ⟨S2048x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1024, .f32⟩
  | .local _ .vmem, ⟨20, _⟩ => ⟨S512x1024, .f32⟩
  | .local _ .vmem, ⟨21, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S1024x1024_S1024x1024_S1024x1024_S3072x1024_d0 : Shape.Concatenates [S1024x1024, S1024x1024, S1024x1024] S3072x1024 0
  bitsLt_bf16_f32 : FTy.bits .bf16 < FTy.bits .f32
  concatenates_S1024_S1024_S1024_S3072_d0 : Shape.Concatenates [S1024, S1024, S1024] S3072 0
  inb_S512x1024_S512x1024_0_0 : ∀ a, (![0, 0] : Fin 2 → Nat) a + S512x1024.size a ≤ S512x1024.size a
  h_S512x1024 : 0 < S512x1024.numel
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  inb_S512x1024_S512x64_0_0 : ∀ a, (![0, 0] : Fin 2 → Nat) a + S512x64.size a ≤ S512x1024.size a
  h_S512x64 : 0 < S512x64.numel
  shapeCasts_S512x64_S512x64 : S512x64.ShapeCasts S512x64
  inb_S2048x1024_S2048x64_0_0 : ∀ a, (![0, 0] : Fin 2 → Nat) a + S2048x64.size a ≤ S2048x1024.size a
  h_S2048x64 : 0 < S2048x64.numel
  shapeCasts_S2048x64_S2048x64 : S2048x64.ShapeCasts S2048x64
  reduces_S512x2048_S512 : S512x2048.Reduces [1] S512
  shapeCasts_S512_S512x1 : S512.ShapeCasts S512x1
  broadcasts_S512x1_S512x2048 : S512x1.Broadcasts S512x2048
  packedbf16_S512x1024_S512x64_0_0 : (Rect.unit (s := S512x1024) ![0, 0] S512x64.size inb_S512x1024_S512x64_0_0).PackedRows (EltTy.packing .bf16)
  inb_S512x1024_S512x64_0_64 : ∀ a, (![0, 64] : Fin 2 → Nat) a + S512x64.size a ≤ S512x1024.size a
  inb_S2048x1024_S2048x64_0_64 : ∀ a, (![0, 64] : Fin 2 → Nat) a + S2048x64.size a ≤ S2048x1024.size a
  packedbf16_S512x1024_S512x64_0_64 : (Rect.unit (s := S512x1024) ![0, 64] S512x64.size inb_S512x1024_S512x64_0_64).PackedRows (EltTy.packing .bf16)
  inb_S512x1024_S512x64_0_128 : ∀ a, (![0, 128] : Fin 2 → Nat) a + S512x64.size a ≤ S512x1024.size a
  inb_S2048x1024_S2048x64_0_128 : ∀ a, (![0, 128] : Fin 2 → Nat) a + S2048x64.size a ≤ S2048x1024.size a
  packedbf16_S512x1024_S512x64_0_128 : (Rect.unit (s := S512x1024) ![0, 128] S512x64.size inb_S512x1024_S512x64_0_128).PackedRows (EltTy.packing .bf16)
  inb_S512x1024_S512x64_0_192 : ∀ a, (![0, 192] : Fin 2 → Nat) a + S512x64.size a ≤ S512x1024.size a
  inb_S2048x1024_S2048x64_0_192 : ∀ a, (![0, 192] : Fin 2 → Nat) a + S2048x64.size a ≤ S2048x1024.size a
  packedbf16_S512x1024_S512x64_0_192 : (Rect.unit (s := S512x1024) ![0, 192] S512x64.size inb_S512x1024_S512x64_0_192).PackedRows (EltTy.packing .bf16)
  inb_S512x1024_S512x64_0_256 : ∀ a, (![0, 256] : Fin 2 → Nat) a + S512x64.size a ≤ S512x1024.size a
  inb_S2048x1024_S2048x64_0_256 : ∀ a, (![0, 256] : Fin 2 → Nat) a + S2048x64.size a ≤ S2048x1024.size a
  packedbf16_S512x1024_S512x64_0_256 : (Rect.unit (s := S512x1024) ![0, 256] S512x64.size inb_S512x1024_S512x64_0_256).PackedRows (EltTy.packing .bf16)
  inb_S512x1024_S512x64_0_320 : ∀ a, (![0, 320] : Fin 2 → Nat) a + S512x64.size a ≤ S512x1024.size a
  inb_S2048x1024_S2048x64_0_320 : ∀ a, (![0, 320] : Fin 2 → Nat) a + S2048x64.size a ≤ S2048x1024.size a
  packedbf16_S512x1024_S512x64_0_320 : (Rect.unit (s := S512x1024) ![0, 320] S512x64.size inb_S512x1024_S512x64_0_320).PackedRows (EltTy.packing .bf16)
  inb_S512x1024_S512x64_0_384 : ∀ a, (![0, 384] : Fin 2 → Nat) a + S512x64.size a ≤ S512x1024.size a
  inb_S2048x1024_S2048x64_0_384 : ∀ a, (![0, 384] : Fin 2 → Nat) a + S2048x64.size a ≤ S2048x1024.size a
  packedbf16_S512x1024_S512x64_0_384 : (Rect.unit (s := S512x1024) ![0, 384] S512x64.size inb_S512x1024_S512x64_0_384).PackedRows (EltTy.packing .bf16)
  inb_S512x1024_S512x64_0_448 : ∀ a, (![0, 448] : Fin 2 → Nat) a + S512x64.size a ≤ S512x1024.size a
  inb_S2048x1024_S2048x64_0_448 : ∀ a, (![0, 448] : Fin 2 → Nat) a + S2048x64.size a ≤ S2048x1024.size a
  packedbf16_S512x1024_S512x64_0_448 : (Rect.unit (s := S512x1024) ![0, 448] S512x64.size inb_S512x1024_S512x64_0_448).PackedRows (EltTy.packing .bf16)
  inb_S512x1024_S512x64_0_512 : ∀ a, (![0, 512] : Fin 2 → Nat) a + S512x64.size a ≤ S512x1024.size a
  inb_S2048x1024_S2048x64_0_512 : ∀ a, (![0, 512] : Fin 2 → Nat) a + S2048x64.size a ≤ S2048x1024.size a
  packedbf16_S512x1024_S512x64_0_512 : (Rect.unit (s := S512x1024) ![0, 512] S512x64.size inb_S512x1024_S512x64_0_512).PackedRows (EltTy.packing .bf16)
  inb_S512x1024_S512x64_0_576 : ∀ a, (![0, 576] : Fin 2 → Nat) a + S512x64.size a ≤ S512x1024.size a
  inb_S2048x1024_S2048x64_0_576 : ∀ a, (![0, 576] : Fin 2 → Nat) a + S2048x64.size a ≤ S2048x1024.size a
  packedbf16_S512x1024_S512x64_0_576 : (Rect.unit (s := S512x1024) ![0, 576] S512x64.size inb_S512x1024_S512x64_0_576).PackedRows (EltTy.packing .bf16)
  inb_S512x1024_S512x64_0_640 : ∀ a, (![0, 640] : Fin 2 → Nat) a + S512x64.size a ≤ S512x1024.size a
  inb_S2048x1024_S2048x64_0_640 : ∀ a, (![0, 640] : Fin 2 → Nat) a + S2048x64.size a ≤ S2048x1024.size a
  packedbf16_S512x1024_S512x64_0_640 : (Rect.unit (s := S512x1024) ![0, 640] S512x64.size inb_S512x1024_S512x64_0_640).PackedRows (EltTy.packing .bf16)
  inb_S512x1024_S512x64_0_704 : ∀ a, (![0, 704] : Fin 2 → Nat) a + S512x64.size a ≤ S512x1024.size a
  inb_S2048x1024_S2048x64_0_704 : ∀ a, (![0, 704] : Fin 2 → Nat) a + S2048x64.size a ≤ S2048x1024.size a
  packedbf16_S512x1024_S512x64_0_704 : (Rect.unit (s := S512x1024) ![0, 704] S512x64.size inb_S512x1024_S512x64_0_704).PackedRows (EltTy.packing .bf16)
  inb_S512x1024_S512x64_0_768 : ∀ a, (![0, 768] : Fin 2 → Nat) a + S512x64.size a ≤ S512x1024.size a
  inb_S2048x1024_S2048x64_0_768 : ∀ a, (![0, 768] : Fin 2 → Nat) a + S2048x64.size a ≤ S2048x1024.size a
  packedbf16_S512x1024_S512x64_0_768 : (Rect.unit (s := S512x1024) ![0, 768] S512x64.size inb_S512x1024_S512x64_0_768).PackedRows (EltTy.packing .bf16)
  inb_S512x1024_S512x64_0_832 : ∀ a, (![0, 832] : Fin 2 → Nat) a + S512x64.size a ≤ S512x1024.size a
  inb_S2048x1024_S2048x64_0_832 : ∀ a, (![0, 832] : Fin 2 → Nat) a + S2048x64.size a ≤ S2048x1024.size a
  packedbf16_S512x1024_S512x64_0_832 : (Rect.unit (s := S512x1024) ![0, 832] S512x64.size inb_S512x1024_S512x64_0_832).PackedRows (EltTy.packing .bf16)
  inb_S512x1024_S512x64_0_896 : ∀ a, (![0, 896] : Fin 2 → Nat) a + S512x64.size a ≤ S512x1024.size a
  inb_S2048x1024_S2048x64_0_896 : ∀ a, (![0, 896] : Fin 2 → Nat) a + S2048x64.size a ≤ S2048x1024.size a
  packedbf16_S512x1024_S512x64_0_896 : (Rect.unit (s := S512x1024) ![0, 896] S512x64.size inb_S512x1024_S512x64_0_896).PackedRows (EltTy.packing .bf16)
  inb_S512x1024_S512x64_0_960 : ∀ a, (![0, 960] : Fin 2 → Nat) a + S512x64.size a ≤ S512x1024.size a
  inb_S2048x1024_S2048x64_0_960 : ∀ a, (![0, 960] : Fin 2 → Nat) a + S2048x64.size a ≤ S2048x1024.size a
  packedbf16_S512x1024_S512x64_0_960 : (Rect.unit (s := S512x1024) ![0, 960] S512x64.size inb_S512x1024_S512x64_0_960).PackedRows (EltTy.packing .bf16)
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  dot_S512x1024_S3072x1024_S512x3072_1_1_0_0_n_n_wf : DotDims.WF S512x1024 S3072x1024 S512x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x1024.size a
  hwx0_3 : ∀ i : grid0.Coords, EltTy.bits .bf16 = 32 ∨ (Rect.block (s := S2048x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S2048x1024.size a
  hwx0_4 : ∀ i : grid0.Coords, EltTy.bits .bf16 = 32 ∨ (Rect.block (s := S2048x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S2048x1024.size a
  hwx0_5 : ∀ i : grid0.Coords, EltTy.bits .bf16 = 32 ∨ (Rect.block (s := S2048x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S2048x1024.size a
  hwx1_0 : ∀ i : grid1.Coords, EltTy.bits .bf16 = 32 ∨ (Rect.block (s := S2048x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x1024.size a
  hwx1_1 : ∀ i : grid1.Coords, EltTy.bits .bf16 = 32 ∨ (Rect.block (s := S2048x1024) S2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S2048x1024.size a
  hwx1_2 : ∀ i : grid1.Coords, EltTy.bits .bf16 = 32 ∨ (Rect.block (s := S2048x1024) S2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S2048x1024.size a
  hwx1_3 : ∀ i : grid1.Coords, EltTy.bits .bf16 = 32 ∨ (Rect.block (s := S2048x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x1024.size a
  hwx2_0 : ∀ i : grid2.Coords, EltTy.bits .bf16 = 32 ∨ (Rect.block (s := S2048x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S2048x1024.size a
  hwx2_3 : ∀ i : grid2.Coords, EltTy.bits .f32 = 32 ∨ (Rect.block (s := S2048x1024) S512x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S2048x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x16x64, .f32⟩
  | .hbm, ⟨15, _⟩ => ⟨S16x2048x64, .f32⟩
  | .hbm, ⟨16, _⟩ => ⟨S1024x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x16x64, .f32⟩
  | .hbm, ⟨22, _⟩ => ⟨S16x2048x64, .f32⟩
  | .hbm, ⟨23, _⟩ => ⟨S1024x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x16x64, .f32⟩
  | .hbm, ⟨29, _⟩ => ⟨S16x2048x64, .f32⟩
  | .hbm, ⟨30, _⟩ => ⟨S16x2048x2048, .f32⟩
  | .hbm, ⟨31, _⟩ => ⟨S_, .f32⟩
  | .hbm, ⟨32, _⟩ => ⟨S_, .f32⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S16x2048, .f32⟩
  | .hbm, ⟨37, _⟩ => ⟨S_, .f32⟩
  | .hbm, ⟨38, _⟩ => ⟨S16x2048, .f32⟩
  | .hbm, ⟨39, _⟩ => ⟨S16x2048, .f32⟩
  | .hbm, ⟨40, _⟩ => ⟨S16x2048x1, .f32⟩
  | .hbm, ⟨41, _⟩ => ⟨S16x2048x2048, .f32⟩
  | .hbm, ⟨42, _⟩ => ⟨S16x2048x2048, .f32⟩
  | .hbm, ⟨43, _⟩ => ⟨S16x2048x2048, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S16x2048x2048, .f32⟩
  | .hbm, ⟨48, _⟩ => ⟨S16x2048x2048, .f32⟩
  | .hbm, ⟨49, _⟩ => ⟨S16x2048x64, .f32⟩
  | .hbm, ⟨50, _⟩ => ⟨S2048x16x64, .f32⟩
  | .hbm, ⟨51, _⟩ => ⟨S2048x1024, .f32⟩
  | .hbm, ⟨52, _⟩ => ⟨S1024x1024, .f32⟩
  | .hbm, ⟨53, _⟩ => ⟨S2048x1024, .f32⟩
  | .hbm, ⟨54, _⟩ => ⟨S1x1024, .f32⟩
  | .hbm, ⟨55, _⟩ => ⟨S2048x1024, .f32⟩
  | .hbm, ⟨56, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  shapeCasts_S2048x1024_S2048x16x64 : S2048x1024.ShapeCasts S2048x16x64
  transposes_S2048x16x64_S16x2048x64_1_0_2 : S2048x16x64.Transposes [1, 0, 2] S16x2048x64
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x1024 : S2048x16x64.ShapeCasts S2048x1024
  dot_S2048x1024_S1024x1024_S2048x1024_1_0_0_1_n_n_wf : DotDims.WF S2048x1024 S1024x1024 S2048x1024 [1] [0] [0] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.KFrame0.lean ====
/-
  The fused query/key/value projection, one grid point at a time. At a point the body reads a block of 512 rows of
  the input, the whole stacked weight and the whole stacked bias, and writes three blocks of 512 rows: columns
  0–1023, 1024–2047 and 2048–3071 of (rows · stacked weightᵀ + stacked bias). This module states what each of the
  three output buffers holds after the body as a function of the three input blocks, proves that the body,
  run on memory holding those blocks, leaves exactly that, and packages it as the pipeline's per-point obligation.
-/
import proofs.«127907_j34505767256262_2_alg».proof.Proof.Gen.Kernel.Launch
import proofs.«127907_j34505767256262_2_alg».proof.Proof.Gen.Kernel.Skeleton
import proofs.«127907_j34505767256262_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, cut out of its array as the kernel call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, whether or not it was fetched there: a block that is
    not fetched again has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rows block, the whole stacked weight, the whole stacked bias. -/
abbrev rRows0 : Rect S512x1024 := Rect.unit (s := S512x1024) ![0, 0] S512x1024.size inb_S512x1024_S512x1024_0_0
abbrev rWgt0 : Rect S3072x1024 := Rect.unit (s := S3072x1024) ![0, 0] S3072x1024.size inb_S3072x1024_S3072x1024_0_0
abbrev rBias0 : Rect S3072 := Rect.unit (s := S3072) ![0] S3072.size inb_S3072_S3072_0

/-- The query block after the body: one store of the whole block, columns 0–1023 of the projection. -/
def out0_3 (x0 : Vec F S512x1024 .f32) (x1 : Vec F S3072x1024 .bf16) (x2 : Vec F S3072 .f32) : Vec F S512x1024 .bf16 :=
  View.canon [⟨rRows0, k0_pay2 (View.ld x0 rRows0) (View.ld x1 rWgt0) (View.ld x2 rBias0)⟩]
/-- The key block: columns 1024–2047. -/
def out0_4 (x0 : Vec F S512x1024 .f32) (x1 : Vec F S3072x1024 .bf16) (x2 : Vec F S3072 .f32) : Vec F S512x1024 .bf16 :=
  View.canon [⟨rRows0, k0_pay3 (View.ld x0 rRows0) (View.ld x1 rWgt0) (View.ld x2 rBias0)⟩]
/-- The value block: columns 2048–3071. -/
def out0_5 (x0 : Vec F S512x1024 .f32) (x1 : Vec F S3072x1024 .bf16) (x2 : Vec F S3072 .f32) : Vec F S512x1024 .bf16 :=
  View.canon [⟨rRows0, k0_pay4 (View.ld x0 rRows0) (View.ld x1 rWgt0) (View.ld x2 rBias0)⟩]

/-- One store of the whole block covers it. -/
theorem cover0 (p0 : Vec F S512x1024 .bf16) (y : S512x1024.Idx) :
    ∃ pc ∈ ([⟨rRows0, p0⟩] : List (View.Piece (Elt F) S512x1024 .bf16)), y ∈ pc.1.set :=
  View.cover_of_tiled [⟨rRows0, p0⟩] S512x1024.size (by rfl) y

set_option maxHeartbeats 4000000 in
/-- The body on whole staging buffers, the inputs' holding `x0 x1 x2` and the outputs' anything, runs to the end with the
    inputs' unchanged and the three outputs' holding the three column blocks of the projection. -/
theorem sound_kernel0 (c : Dev nD) (E : Set ℕ) (i : grid0.Coords) (arg1 : Memref sig .tc .vmem S512x1024 .f32) (harg1 : arg1.IsWhole) (arg2 : Memref sig .tc .vmem S3072x1024 .bf16) (harg2 : arg2.IsWhole) (arg3 : Memref sig .tc .vmem S3072 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .f32) (x1 : Vec F S3072x1024 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-- The pipeline's proof data on core `c`: the arrays as found; after the body at a point each input's buffer at its
    block and each output's at its function of the input blocks; nothing else held, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at a point, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrame1.lean ====
/-
  The attention kernel, one grid point at a time. At a point the body reads a block of 512 query rows and all 2048 key
  and value rows; for each of the sixteen heads it takes the head's 64 columns of the three, forms the scores of the
  block's rows against every key row, turns each score row into weights (subtract the row's maximum, exponentiate,
  divide by the row's total) and stores the weighted sums of the value rows into the head's 64 columns of the output
  block. This module states what the output buffer holds after the body — sixteen column strips, each a function of
  the same strips of the three inputs —, proves that the body leaves exactly that, and packages it as the pipeline's
  per-point obligation.
-/
import proofs.«127907_j34505767256262_2_alg».proof.Proof.Gen.Kernel.Launch
import proofs.«127907_j34505767256262_2_alg».proof.Proof.Gen.Kernel.Skeleton
import proofs.«127907_j34505767256262_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, cut out of its array as the kernel call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Head `h`'s strip of 64 columns, in a block of 512 rows and in the 2048 key or value rows. -/
abbrev rQ0 : Rect S512x1024 := Rect.unit (s := S512x1024) ![0, 0] S512x64.size inb_S512x1024_S512x64_0_0
abbrev rK0 : Rect S2048x1024 := Rect.unit (s := S2048x1024) ![0, 0] S2048x64.size inb_S2048x1024_S2048x64_0_0
abbrev rQ1 : Rect S512x1024 := Rect.unit (s := S512x1024) ![0, 64] S512x64.size inb_S512x1024_S512x64_0_64
abbrev rK1 : Rect S2048x1024 := Rect.unit (s := S2048x1024) ![0, 64] S2048x64.size inb_S2048x1024_S2048x64_0_64
abbrev rQ2 : Rect S512x1024 := Rect.unit (s := S512x1024) ![0, 128] S512x64.size inb_S512x1024_S512x64_0_128
abbrev rK2 : Rect S2048x1024 := Rect.unit (s := S2048x1024) ![0, 128] S2048x64.size inb_S2048x1024_S2048x64_0_128
abbrev rQ3 : Rect S512x1024 := Rect.unit (s := S512x1024) ![0, 192] S512x64.size inb_S512x1024_S512x64_0_192
abbrev rK3 : Rect S2048x1024 := Rect.unit (s := S2048x1024) ![0, 192] S2048x64.size inb_S2048x1024_S2048x64_0_192
abbrev rQ4 : Rect S512x1024 := Rect.unit (s := S512x1024) ![0, 256] S512x64.size inb_S512x1024_S512x64_0_256
abbrev rK4 : Rect S2048x1024 := Rect.unit (s := S2048x1024) ![0, 256] S2048x64.size inb_S2048x1024_S2048x64_0_256
abbrev rQ5 : Rect S512x1024 := Rect.unit (s := S512x1024) ![0, 320] S512x64.size inb_S512x1024_S512x64_0_320
abbrev rK5 : Rect S2048x1024 := Rect.unit (s := S2048x1024) ![0, 320] S2048x64.size inb_S2048x1024_S2048x64_0_320
abbrev rQ6 : Rect S512x1024 := Rect.unit (s := S512x1024) ![0, 384] S512x64.size inb_S512x1024_S512x64_0_384
abbrev rK6 : Rect S2048x1024 := Rect.unit (s := S2048x1024) ![0, 384] S2048x64.size inb_S2048x1024_S2048x64_0_384
abbrev rQ7 : Rect S512x1024 := Rect.unit (s := S512x1024) ![0, 448] S512x64.size inb_S512x1024_S512x64_0_448
abbrev rK7 : Rect S2048x1024 := Rect.unit (s := S2048x1024) ![0, 448] S2048x64.size inb_S2048x1024_S2048x64_0_448
abbrev rQ8 : Rect S512x1024 := Rect.unit (s := S512x1024) ![0, 512] S512x64.size inb_S512x1024_S512x64_0_512
abbrev rK8 : Rect S2048x1024 := Rect.unit (s := S2048x1024) ![0, 512] S2048x64.size inb_S2048x1024_S2048x64_0_512
abbrev rQ9 : Rect S512x1024 := Rect.unit (s := S512x1024) ![0, 576] S512x64.size inb_S512x1024_S512x64_0_576
abbrev rK9 : Rect S2048x1024 := Rect.unit (s := S2048x1024) ![0, 576] S2048x64.size inb_S2048x1024_S2048x64_0_576
abbrev rQ10 : Rect S512x1024 := Rect.unit (s := S512x1024) ![0, 640] S512x64.size inb_S512x1024_S512x64_0_640
abbrev rK10 : Rect S2048x1024 := Rect.unit (s := S2048x1024) ![0, 640] S2048x64.size inb_S2048x1024_S2048x64_0_640
abbrev rQ11 : Rect S512x1024 := Rect.unit (s := S512x1024) ![0, 704] S512x64.size inb_S512x1024_S512x64_0_704
abbrev rK11 : Rect S2048x1024 := Rect.unit (s := S2048x1024) ![0, 704] S2048x64.size inb_S2048x1024_S2048x64_0_704
abbrev rQ12 : Rect S512x1024 := Rect.unit (s := S512x1024) ![0, 768] S512x64.size inb_S512x1024_S512x64_0_768
abbrev rK12 : Rect S2048x1024 := Rect.unit (s := S2048x1024) ![0, 768] S2048x64.size inb_S2048x1024_S2048x64_0_768
abbrev rQ13 : Rect S512x1024 := Rect.unit (s := S512x1024) ![0, 832] S512x64.size inb_S512x1024_S512x64_0_832
abbrev rK13 : Rect S2048x1024 := Rect.unit (s := S2048x1024) ![0, 832] S2048x64.size inb_S2048x1024_S2048x64_0_832
abbrev rQ14 : Rect S512x1024 := Rect.unit (s := S512x1024) ![0, 896] S512x64.size inb_S512x1024_S512x64_0_896
abbrev rK14 : Rect S2048x1024 := Rect.unit (s := S2048x1024) ![0, 896] S2048x64.size inb_S2048x1024_S2048x64_0_896
abbrev rQ15 : Rect S512x1024 := Rect.unit (s := S512x1024) ![0, 960] S512x64.size inb_S512x1024_S512x64_0_960
abbrev rK15 : Rect S2048x1024 := Rect.unit (s := S2048x1024) ![0, 960] S2048x64.size inb_S2048x1024_S2048x64_0_960

/-- The output block after the body: sixteen stores, one per head, each into the head's strip; listed last first. -/
def out1_3 (x0 : Vec F S512x1024 .bf16) (x1 : Vec F S2048x1024 .bf16) (x2 : Vec F S2048x1024 .bf16) : Vec F S512x1024 .bf16 :=
  View.canon [
    ⟨rQ15, k1_pay1 (View.ld x0 rQ15) (View.ld x1 rK15) (View.ld x2 rK15)⟩,
    ⟨rQ14, k1_pay28 (View.ld x0 rQ14) (View.ld x1 rK14) (View.ld x2 rK14)⟩,
    ⟨rQ13, k1_pay27 (k1_pay25 (View.ld x0 rQ13)) (k1_pay26 (View.ld x1 rK13)) (View.ld x2 rK13)⟩,
    ⟨rQ12, k1_pay24 (View.ld x0 rQ12) (View.ld x1 rK12) (View.ld x2 rK12)⟩,
    ⟨rQ11, k1_pay23 (k1_pay21 (View.ld x2 rK11)) (k1_pay22 (View.ld x0 rQ11) (View.ld x1 rK11))⟩,
    ⟨rQ10, k1_pay20 (View.ld x0 rQ10) (View.ld x1 rK10) (View.ld x2 rK10)⟩,
    ⟨rQ9, k1_pay19 (View.ld x0 rQ9) (View.ld x1 rK9) (View.ld x2 rK9)⟩,
    ⟨rQ8, k1_pay18 (k1_pay16 (View.ld x0 rQ8)) (k1_pay17 (View.ld x1 rK8)) (View.ld x2 rK8)⟩,
    ⟨rQ7, k1_pay15 (View.ld x0 rQ7) (View.ld x1 rK7) (View.ld x2 rK7)⟩,
    ⟨rQ6, k1_pay14 (k1_pay12 (View.ld x2 rK6)) (k1_pay13 (View.ld x0 rQ6) (View.ld x1 rK6))⟩,
    ⟨rQ5, k1_pay11 (View.ld x0 rQ5) (View.ld x1 rK5) (View.ld x2 rK5)⟩,
    ⟨rQ4, k1_pay10 (View.ld x0 rQ4) (View.ld x1 rK4) (View.ld x2 rK4)⟩,
    ⟨rQ3, k1_pay9 (k1_pay7 (View.ld x0 rQ3)) (k1_pay8 (View.ld x1 rK3)) (View.ld x2 rK3)⟩,
    ⟨rQ2, k1_pay6 (View.ld x0 rQ2) (View.ld x1 rK2) (View.ld x2 rK2)⟩,
    ⟨rQ1, k1_pay5 (k1_pay3 (View.ld x2 rK1)) (k1_pay4 (View.ld x0 rQ1) (View.ld x1 rK1))⟩,
    ⟨rQ0, k1_pay2 (View.ld x0 rQ0) (View.ld x1 rK0) (View.ld x2 rK0)⟩]

/-- The sixteen strips tile the block, so they cover it. -/
theorem cover1 (p0 p1 p2 p3 p4 p5 p6 p7 p8 p9 p10 p11 p12 p13 p14 p15 : Vec F S512x64 .bf16) (y : S512x1024.Idx) :
    ∃ pc ∈ ([⟨rQ15, p15⟩, ⟨rQ14, p14⟩, ⟨rQ13, p13⟩, ⟨rQ12, p12⟩, ⟨rQ11, p11⟩, ⟨rQ10, p10⟩, ⟨rQ9, p9⟩, ⟨rQ8, p8⟩, ⟨rQ7, p7⟩, ⟨rQ6, p6⟩, ⟨rQ5, p5⟩, ⟨rQ4, p4⟩, ⟨rQ3, p3⟩, ⟨rQ2, p2⟩, ⟨rQ1, p1⟩, ⟨rQ0, p0⟩] : List (View.Piece (Elt F) S512x1024 .bf16)), y ∈ pc.1.set :=
  View.cover_of_tiled [⟨rQ15, p15⟩, ⟨rQ14, p14⟩, ⟨rQ13, p13⟩, ⟨rQ12, p12⟩, ⟨rQ11, p11⟩, ⟨rQ10, p10⟩, ⟨rQ9, p9⟩, ⟨rQ8, p8⟩, ⟨rQ7, p7⟩, ⟨rQ6, p6⟩, ⟨rQ5, p5⟩, ⟨rQ4, p4⟩, ⟨rQ3, p3⟩, ⟨rQ2, p2⟩, ⟨rQ1, p1⟩, ⟨rQ0, p0⟩] S512x64.size (by rfl) y

set_option maxHeartbeats 16000000 in
/-- The body on whole staging buffers, the inputs' holding `x0 x1 x2` and the output's anything, runs to the end with the
    inputs' unchanged and the output's holding the sixteen heads' strips. -/
theorem sound_kernel1 (c : Dev nD) (E : Set ℕ) (i : grid1.Coords) (arg1 : Memref sig .tc .vmem S512x1024 .bf16) (harg1 : arg1.IsWhole) (arg2 : Memref sig .tc .vmem S2048x1024 .bf16) (harg2 : arg2.IsWhole) (arg3 : Memref sig .tc .vmem S2048x1024 .bf16) (harg3 : arg3.IsWhole) (arg4 : Memref sig .tc .vmem S512x1024 .bf16) (harg4 : arg4.IsWhole)
    (x0 : Vec F S512x1024 .bf16) (x1 : Vec F S2048x1024 .bf16) (x2 : Vec F S2048x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _ _ _ _ _ _ _ _ _ _ _ _ _ _ _ _)

/-- The pipeline's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KFrame2.lean ====
/-
  The output projection, one grid point at a time. At a point the body reads a block of 512 rows of the attention
  output, the whole weight and the whole bias, and writes the block of 512 rows of (rows · weightᵀ + bias). This module
  states what the output buffer holds after the body as a function of the three input blocks, proves that the body
  leaves exactly that, and packages it as the pipeline's per-point obligation.
-/
import proofs.«127907_j34505767256262_2_alg».proof.Proof.Gen.Kernel.Launch
import proofs.«127907_j34505767256262_2_alg».proof.Proof.Gen.Kernel.Skeleton
import proofs.«127907_j34505767256262_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, cut out of its array as the kernel call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole rows block, the whole weight, the whole bias. -/
abbrev rRows2 : Rect S512x1024 := Rect.unit (s := S512x1024) ![0, 0] S512x1024.size inb_S512x1024_S512x1024_0_0
abbrev rWgt2 : Rect S1024x1024 := Rect.unit (s := S1024x1024) ![0, 0] S1024x1024.size inb_S1024x1024_S1024x1024_0_0
abbrev rBias2 : Rect S1024 := Rect.unit (s := S1024) ![0] S1024.size inb_S1024_S1024_0

/-- The output block after the body: one store of the whole block. -/
def out2_3 (x0 : Vec F S512x1024 .bf16) (x1 : Vec F S1024x1024 .bf16) (x2 : Vec F S1024 .f32) : Vec F S512x1024 .f32 :=
  View.canon [⟨rRows2, k2_pay1 (View.ld x0 rRows2) (View.ld x1 rWgt2) (View.ld x2 rBias2)⟩]

/-- One store of the whole block covers it. -/
theorem cover2 (p0 : Vec F S512x1024 .f32) (y : S512x1024.Idx) :
    ∃ pc ∈ ([⟨rRows2, p0⟩] : List (View.Piece (Elt F) S512x1024 .f32)), y ∈ pc.1.set :=
  View.cover_of_tiled [⟨rRows2, p0⟩] S512x1024.size (by rfl) y

set_option maxHeartbeats 4000000 in
/-- The body on whole staging buffers, the inputs' holding `x0 x1 x2` and the output's anything, runs to the end with the
    inputs' unchanged and the output's holding the projection of the rows block. -/
theorem sound_kernel2 (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The pipeline's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KRun.lean ====
/-
  The whole program as a run: four host operations (two stackings of three arrays, two changes of float format), then
  the three kernel calls one after the other. The contents of every buffer between two items are named — the launch
  memory, then the host operations' results, then after each kernel call its arrays at what its pipeline leaves and
  everything else untouched — and the run theorem says: every fair execution terminates without a fault with every
  unscoped buffer at the last of these contents. The frame (arguments unchanged) and the result's value are both read
  off that one statement.
-/
import proofs.«127907_j34505767256262_2_alg».proof.Proof.Gen.Kernel.Launch
import proofs.«127907_j34505767256262_2_alg».proof.Proof.Gen.Kernel.Skeleton
import proofs.«127907_j34505767256262_2_alg».proof.Proof.Gen.Kernel.Points
import proofs.«127907_j34505767256262_2_alg».proof.Proof.KFrame0
import proofs.«127907_j34505767256262_2_alg».proof.Proof.KFrame1
import proofs.«127907_j34505767256262_2_alg».proof.Proof.KFrame2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After kernel call 0: its arrays at what the pipeline leaves (inputs as entered, each output's blocks written back),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After kernel call 1: its arrays at what the pipeline leaves (inputs as entered, each output's blocks written back),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After kernel call 2: its arrays at what the pipeline leaves (inputs as entered, each output's blocks written back),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- No kernel call has a prefetched table. -/
abbrev adm : (p : Fin 3) → (pcfgs (F := F) p).Adm := fun p => (cfgs p).toPCfg_adm
/-- Every pipeline's proof data, each at the contents its kernel call is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every item: the random-number generator's register at some state, and nothing owed. -/
abbrev R (c : Dev nD) : sProp 𝕄 := iprop((∃ r, prngReg c r) ∗ ∃ W, owes (c : Thread nD τ) (0 : CellTallies nD τ sig Unit) W)
/-- A line of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped reference is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the owing: every unscoped buffer at the last contents, the random-number generator's register. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- Kernel call 0 as a segment: entered with every unscoped buffer at the contents before it, left with them at the
    contents after it. Its arrays are split out of the unscoped buffers on entry and put back, at what the pipeline
    leaves, on exit; the random-number generator's register goes into the pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 1 as a segment: entered with every unscoped buffer at the contents before it, left with them at the
    contents after it. Its arrays are split out of the unscoped buffers on entry and put back, at what the pipeline
    leaves, on exit; the random-number generator's register goes into the pipeline's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 2 as a segment: entered with every unscoped buffer at the contents before it, left with them at the
    contents after it. Its arrays are split out of the unscoped buffers on entry and put back, at what the pipeline
    leaves, on exit; the random-number generator's register goes into the pipeline's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- The program is the run of its items. -/
theorem main_run (c : Dev nD) : main (F := F) c = Pipeline.Seg.run (segs m ρ) := (main_chain c).trans (by chain_rfl)

set_option backward.isDefEq.respectTransparency.types false in
/-- THE RUN: from any memory with zero counters every fair execution terminates, nothing faulting, and in every final
    state each unscoped buffer of each core holds the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Fr

end
-- ==== Proof.KKept.lean ====
/-
  No item of the program changes an argument array: the host operations write only their own four results, and a
  kernel call changes only its output arrays (an argument it reads through an input window comes back as entered). So
  the last contents of each argument buffer are the launch contents, and the run gives the frame: every fair execution
  terminates without a fault with the nine arguments unchanged.
-/
import proofs.«127907_j34505767256262_2_alg».proof.Proof.Gen.Kernel.Launch
import proofs.«127907_j34505767256262_2_alg».proof.Proof.Gen.Kernel.Skeleton
import proofs.«127907_j34505767256262_2_alg».proof.Proof.Gen.Kernel.Points
import proofs.«127907_j34505767256262_2_alg».proof.Proof.KRun
import proofs.«127907_j34505767256262_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer the host operations do not write holds its launch contents after them. -/
theorem W1_keep (c : Dev nD) (r : Ref sig .tc) (h : r ∉ Gen.hostOps0_W) : W1 m ρ c r = W0 m ρ c r :=
  StableHlo.after_of_writes_sub hostOps0 _ Gen.hostOps0_writes h

/-- A buffer that is no kernel call's array and no host result ends at its launch contents. -/
theorem W4_keep (c : Dev nD) (r : Ref sig .tc) (h0 : ∀ w, Pipeline.arrRef spec0 w ≠ r) (h1 : ∀ w, Pipeline.arrRef spec1 w ≠ r)
    (h2 : ∀ w, Pipeline.arrRef spec2 w ≠ r) (hh : r ∉ Gen.hostOps0_W) :
    W4 m ρ c (Proc.devRef .tc r) = m ((c : Thread nD τ).loc r) :=
  (W4_of_ne m ρ c r h2).trans <| (W3_of_ne m ρ c r h1).trans <| (W2_of_ne m ρ c r h0).trans <| (W1_keep m ρ c r hh).trans rfl

theorem W4_main_arg1 (c : Dev nD) : W4 m ρ c (Proc.devRef .tc main_arg1) = m ((c : Thread nD τ).loc main_arg1) :=
  W4_keep m ρ c main_arg1 (by decide) (by decide) (by decide) (by decide)
theorem W4_main_arg2 (c : Dev nD) : W4 m ρ c (Proc.devRef .tc main_arg2) = m ((c : Thread nD τ).loc main_arg2) :=
  W4_keep m ρ c main_arg2 (by decide) (by decide) (by decide) (by decide)
theorem W4_main_arg3 (c : Dev nD) : W4 m ρ c (Proc.devRef .tc main_arg3) = m ((c : Thread nD τ).loc main_arg3) :=
  W4_keep m ρ c main_arg3 (by decide) (by decide) (by decide) (by decide)
theorem W4_main_arg4 (c : Dev nD) : W4 m ρ c (Proc.devRef .tc main_arg4) = m ((c : Thread nD τ).loc main_arg4) :=
  W4_keep m ρ c main_arg4 (by decide) (by decide) (by decide) (by decide)
theorem W4_main_arg5 (c : Dev nD) : W4 m ρ c (Proc.devRef .tc main_arg5) = m ((c : Thread nD τ).loc main_arg5) :=
  W4_keep m ρ c main_arg5 (by decide) (by decide) (by decide) (by decide)
theorem W4_main_arg6 (c : Dev nD) : W4 m ρ c (Proc.devRef .tc main_arg6) = m ((c : Thread nD τ).loc main_arg6) :=
  W4_keep m ρ c main_arg6 (by decide) (by decide) (by decide) (by decide)
theorem W4_main_arg7 (c : Dev nD) : W4 m ρ c (Proc.devRef .tc main_arg7) = m ((c : Thread nD τ).loc main_arg7) :=
  W4_keep m ρ c main_arg7 (by decide) (by decide) (by decide) (by decide)

/-- The input rows: the first kernel call reads them through an input window and leaves them as entered. -/
theorem W4_main_arg0 (c : Dev nD) : W4 m ρ c (Proc.devRef .tc main_arg0) = m ((c : Thread nD τ).loc main_arg0) :=
  (W4_of_ne m ρ c main_arg0 (by decide)).trans <| (W3_of_ne m ρ c main_arg0 (by decide)).trans <|
    ((W2_arr m ρ c 0).trans (((dat0 (V1 m ρ) c).arrAt_in 0 rfl _).trans (A_eq0 (V1 m ρ) c 0))).trans <|
    (W1_keep m ρ c main_arg0 (by decide)).trans rfl

/-- The output bias: the last kernel call reads it through an input window and leaves it as entered. -/
theorem W4_main_arg8 (c : Dev nD) : W4 m ρ c (Proc.devRef .tc main_arg8) = m ((c : Thread nD τ).loc main_arg8) :=
  ((W4_arr m ρ c 2).trans (((dat2 (V3 m ρ) c).arrAt_in 2 rfl _).trans (A_eq2 (V3 m ρ) c 2))).trans <|
    (W3_of_ne m ρ c main_arg8 (by decide)).trans <| (W2_of_ne m ρ c main_arg8 (by decide)).trans <|
    (W1_keep m ρ c main_arg8 (by decide)).trans rfl

/-- THE FRAME: every fair execution terminates without a fault and leaves the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.Kernel.Fr

end
-- ==== Proof.KIFrame0.lean ====
/-
  The fused query/key/value projection, one grid point at a time. At a point the body reads a block of 512 rows of
  the input, the whole stacked weight and the whole stacked bias, and writes three blocks of 512 rows: columns
  0–1023, 1024–2047 and 2048–3071 of (rows · stacked weightᵀ + stacked bias). This module states what each of the
  three output buffers holds after the body as a function of the three input blocks, proves that the body,
  run on memory holding those blocks, leaves exactly that, and packages it as the pipeline's per-point obligation.
-/
import proofs.«127907_j34505767256262_2_alg».proof.Proof.Gen.KernelIdeal.Launch
import proofs.«127907_j34505767256262_2_alg».proof.Proof.Gen.KernelIdeal.Skeleton
import proofs.«127907_j34505767256262_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, cut out of its array as the kernel call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, whether or not it was fetched there: a block that is
    not fetched again has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rows block, the whole stacked weight, the whole stacked bias. -/
abbrev rRows0 : Rect S512x1024 := Rect.unit (s := S512x1024) ![0, 0] S512x1024.size inb_S512x1024_S512x1024_0_0
abbrev rWgt0 : Rect S3072x1024 := Rect.unit (s := S3072x1024) ![0, 0] S3072x1024.size inb_S3072x1024_S3072x1024_0_0
abbrev rBias0 : Rect S3072 := Rect.unit (s := S3072) ![0] S3072.size inb_S3072_S3072_0

/-- The query block after the body: one store of the whole block, columns 0–1023 of the projection. -/
def out0_3 (x0 : Vec F S512x1024 .f32) (x1 : Vec F S3072x1024 .bf16) (x2 : Vec F S3072 .f32) : Vec F S512x1024 .bf16 :=
  View.canon [⟨rRows0, k0_pay2 (View.ld x0 rRows0) (View.ld x1 rWgt0) (View.ld x2 rBias0)⟩]
/-- The key block: columns 1024–2047. -/
def out0_4 (x0 : Vec F S512x1024 .f32) (x1 : Vec F S3072x1024 .bf16) (x2 : Vec F S3072 .f32) : Vec F S512x1024 .bf16 :=
  View.canon [⟨rRows0, k0_pay3 (View.ld x0 rRows0) (View.ld x1 rWgt0) (View.ld x2 rBias0)⟩]
/-- The value block: columns 2048–3071. -/
def out0_5 (x0 : Vec F S512x1024 .f32) (x1 : Vec F S3072x1024 .bf16) (x2 : Vec F S3072 .f32) : Vec F S512x1024 .bf16 :=
  View.canon [⟨rRows0, k0_pay4 (View.ld x0 rRows0) (View.ld x1 rWgt0) (View.ld x2 rBias0)⟩]

/-- One store of the whole block covers it. -/
theorem cover0 (p0 : Vec F S512x1024 .bf16) (y : S512x1024.Idx) :
    ∃ pc ∈ ([⟨rRows0, p0⟩] : List (View.Piece (Elt F) S512x1024 .bf16)), y ∈ pc.1.set :=
  View.cover_of_tiled [⟨rRows0, p0⟩] S512x1024.size (by rfl) y

set_option maxHeartbeats 4000000 in
/-- The body on whole staging buffers, the inputs' holding `x0 x1 x2` and the outputs' anything, runs to the end with the
    inputs' unchanged and the three outputs' holding the three column blocks of the projection. -/
theorem sound_kernel0 (c : Dev nD) (E : Set ℕ) (i : grid0.Coords) (arg1 : Memref sig .tc .vmem S512x1024 .f32) (harg1 : arg1.IsWhole) (arg2 : Memref sig .tc .vmem S3072x1024 .bf16) (harg2 : arg2.IsWhole) (arg3 : Memref sig .tc .vmem S3072 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .f32) (x1 : Vec F S3072x1024 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-- The pipeline's proof data on core `c`: the arrays as found; after the body at a point each input's buffer at its
    block and each output's at its function of the input blocks; nothing else held, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at a point, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIFrame1.lean ====
/-
  The attention kernel, one grid point at a time. At a point the body reads a block of 512 query rows and all 2048 key
  and value rows; for each of the sixteen heads it takes the head's 64 columns of the three, forms the scores of the
  block's rows against every key row, turns each score row into weights (subtract the row's maximum, exponentiate,
  divide by the row's total) and stores the weighted sums of the value rows into the head's 64 columns of the output
  block. This module states what the output buffer holds after the body — sixteen column strips, each a function of
  the same strips of the three inputs —, proves that the body leaves exactly that, and packages it as the pipeline's
  per-point obligation.
-/
import proofs.«127907_j34505767256262_2_alg».proof.Proof.Gen.KernelIdeal.Launch
import proofs.«127907_j34505767256262_2_alg».proof.Proof.Gen.KernelIdeal.Skeleton
import proofs.«127907_j34505767256262_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, cut out of its array as the kernel call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Head `h`'s strip of 64 columns, in a block of 512 rows and in the 2048 key or value rows. -/
abbrev rQ0 : Rect S512x1024 := Rect.unit (s := S512x1024) ![0, 0] S512x64.size inb_S512x1024_S512x64_0_0
abbrev rK0 : Rect S2048x1024 := Rect.unit (s := S2048x1024) ![0, 0] S2048x64.size inb_S2048x1024_S2048x64_0_0
abbrev rQ1 : Rect S512x1024 := Rect.unit (s := S512x1024) ![0, 64] S512x64.size inb_S512x1024_S512x64_0_64
abbrev rK1 : Rect S2048x1024 := Rect.unit (s := S2048x1024) ![0, 64] S2048x64.size inb_S2048x1024_S2048x64_0_64
abbrev rQ2 : Rect S512x1024 := Rect.unit (s := S512x1024) ![0, 128] S512x64.size inb_S512x1024_S512x64_0_128
abbrev rK2 : Rect S2048x1024 := Rect.unit (s := S2048x1024) ![0, 128] S2048x64.size inb_S2048x1024_S2048x64_0_128
abbrev rQ3 : Rect S512x1024 := Rect.unit (s := S512x1024) ![0, 192] S512x64.size inb_S512x1024_S512x64_0_192
abbrev rK3 : Rect S2048x1024 := Rect.unit (s := S2048x1024) ![0, 192] S2048x64.size inb_S2048x1024_S2048x64_0_192
abbrev rQ4 : Rect S512x1024 := Rect.unit (s := S512x1024) ![0, 256] S512x64.size inb_S512x1024_S512x64_0_256
abbrev rK4 : Rect S2048x1024 := Rect.unit (s := S2048x1024) ![0, 256] S2048x64.size inb_S2048x1024_S2048x64_0_256
abbrev rQ5 : Rect S512x1024 := Rect.unit (s := S512x1024) ![0, 320] S512x64.size inb_S512x1024_S512x64_0_320
abbrev rK5 : Rect S2048x1024 := Rect.unit (s := S2048x1024) ![0, 320] S2048x64.size inb_S2048x1024_S2048x64_0_320
abbrev rQ6 : Rect S512x1024 := Rect.unit (s := S512x1024) ![0, 384] S512x64.size inb_S512x1024_S512x64_0_384
abbrev rK6 : Rect S2048x1024 := Rect.unit (s := S2048x1024) ![0, 384] S2048x64.size inb_S2048x1024_S2048x64_0_384
abbrev rQ7 : Rect S512x1024 := Rect.unit (s := S512x1024) ![0, 448] S512x64.size inb_S512x1024_S512x64_0_448
abbrev rK7 : Rect S2048x1024 := Rect.unit (s := S2048x1024) ![0, 448] S2048x64.size inb_S2048x1024_S2048x64_0_448
abbrev rQ8 : Rect S512x1024 := Rect.unit (s := S512x1024) ![0, 512] S512x64.size inb_S512x1024_S512x64_0_512
abbrev rK8 : Rect S2048x1024 := Rect.unit (s := S2048x1024) ![0, 512] S2048x64.size inb_S2048x1024_S2048x64_0_512
abbrev rQ9 : Rect S512x1024 := Rect.unit (s := S512x1024) ![0, 576] S512x64.size inb_S512x1024_S512x64_0_576
abbrev rK9 : Rect S2048x1024 := Rect.unit (s := S2048x1024) ![0, 576] S2048x64.size inb_S2048x1024_S2048x64_0_576
abbrev rQ10 : Rect S512x1024 := Rect.unit (s := S512x1024) ![0, 640] S512x64.size inb_S512x1024_S512x64_0_640
abbrev rK10 : Rect S2048x1024 := Rect.unit (s := S2048x1024) ![0, 640] S2048x64.size inb_S2048x1024_S2048x64_0_640
abbrev rQ11 : Rect S512x1024 := Rect.unit (s := S512x1024) ![0, 704] S512x64.size inb_S512x1024_S512x64_0_704
abbrev rK11 : Rect S2048x1024 := Rect.unit (s := S2048x1024) ![0, 704] S2048x64.size inb_S2048x1024_S2048x64_0_704
abbrev rQ12 : Rect S512x1024 := Rect.unit (s := S512x1024) ![0, 768] S512x64.size inb_S512x1024_S512x64_0_768
abbrev rK12 : Rect S2048x1024 := Rect.unit (s := S2048x1024) ![0, 768] S2048x64.size inb_S2048x1024_S2048x64_0_768
abbrev rQ13 : Rect S512x1024 := Rect.unit (s := S512x1024) ![0, 832] S512x64.size inb_S512x1024_S512x64_0_832
abbrev rK13 : Rect S2048x1024 := Rect.unit (s := S2048x1024) ![0, 832] S2048x64.size inb_S2048x1024_S2048x64_0_832
abbrev rQ14 : Rect S512x1024 := Rect.unit (s := S512x1024) ![0, 896] S512x64.size inb_S512x1024_S512x64_0_896
abbrev rK14 : Rect S2048x1024 := Rect.unit (s := S2048x1024) ![0, 896] S2048x64.size inb_S2048x1024_S2048x64_0_896
abbrev rQ15 : Rect S512x1024 := Rect.unit (s := S512x1024) ![0, 960] S512x64.size inb_S512x1024_S512x64_0_960
abbrev rK15 : Rect S2048x1024 := Rect.unit (s := S2048x1024) ![0, 960] S2048x64.size inb_S2048x1024_S2048x64_0_960

/-- The output block after the body: sixteen stores, one per head, each into the head's strip; listed last first. -/
def out1_3 (x0 : Vec F S512x1024 .bf16) (x1 : Vec F S2048x1024 .bf16) (x2 : Vec F S2048x1024 .bf16) : Vec F S512x1024 .bf16 :=
  View.canon [
    ⟨rQ15, k1_pay1 (View.ld x0 rQ15) (View.ld x1 rK15) (View.ld x2 rK15)⟩,
    ⟨rQ14, k1_pay28 (View.ld x0 rQ14) (View.ld x1 rK14) (View.ld x2 rK14)⟩,
    ⟨rQ13, k1_pay27 (k1_pay25 (View.ld x0 rQ13)) (k1_pay26 (View.ld x1 rK13)) (View.ld x2 rK13)⟩,
    ⟨rQ12, k1_pay24 (View.ld x0 rQ12) (View.ld x1 rK12) (View.ld x2 rK12)⟩,
    ⟨rQ11, k1_pay23 (k1_pay21 (View.ld x2 rK11)) (k1_pay22 (View.ld x0 rQ11) (View.ld x1 rK11))⟩,
    ⟨rQ10, k1_pay20 (View.ld x0 rQ10) (View.ld x1 rK10) (View.ld x2 rK10)⟩,
    ⟨rQ9, k1_pay19 (View.ld x0 rQ9) (View.ld x1 rK9) (View.ld x2 rK9)⟩,
    ⟨rQ8, k1_pay18 (k1_pay16 (View.ld x0 rQ8)) (k1_pay17 (View.ld x1 rK8)) (View.ld x2 rK8)⟩,
    ⟨rQ7, k1_pay15 (View.ld x0 rQ7) (View.ld x1 rK7) (View.ld x2 rK7)⟩,
    ⟨rQ6, k1_pay14 (k1_pay12 (View.ld x2 rK6)) (k1_pay13 (View.ld x0 rQ6) (View.ld x1 rK6))⟩,
    ⟨rQ5, k1_pay11 (View.ld x0 rQ5) (View.ld x1 rK5) (View.ld x2 rK5)⟩,
    ⟨rQ4, k1_pay10 (View.ld x0 rQ4) (View.ld x1 rK4) (View.ld x2 rK4)⟩,
    ⟨rQ3, k1_pay9 (k1_pay7 (View.ld x0 rQ3)) (k1_pay8 (View.ld x1 rK3)) (View.ld x2 rK3)⟩,
    ⟨rQ2, k1_pay6 (View.ld x0 rQ2) (View.ld x1 rK2) (View.ld x2 rK2)⟩,
    ⟨rQ1, k1_pay5 (k1_pay3 (View.ld x2 rK1)) (k1_pay4 (View.ld x0 rQ1) (View.ld x1 rK1))⟩,
    ⟨rQ0, k1_pay2 (View.ld x0 rQ0) (View.ld x1 rK0) (View.ld x2 rK0)⟩]

/-- The sixteen strips tile the block, so they cover it. -/
theorem cover1 (p0 p1 p2 p3 p4 p5 p6 p7 p8 p9 p10 p11 p12 p13 p14 p15 : Vec F S512x64 .bf16) (y : S512x1024.Idx) :
    ∃ pc ∈ ([⟨rQ15, p15⟩, ⟨rQ14, p14⟩, ⟨rQ13, p13⟩, ⟨rQ12, p12⟩, ⟨rQ11, p11⟩, ⟨rQ10, p10⟩, ⟨rQ9, p9⟩, ⟨rQ8, p8⟩, ⟨rQ7, p7⟩, ⟨rQ6, p6⟩, ⟨rQ5, p5⟩, ⟨rQ4, p4⟩, ⟨rQ3, p3⟩, ⟨rQ2, p2⟩, ⟨rQ1, p1⟩, ⟨rQ0, p0⟩] : List (View.Piece (Elt F) S512x1024 .bf16)), y ∈ pc.1.set :=
  View.cover_of_tiled [⟨rQ15, p15⟩, ⟨rQ14, p14⟩, ⟨rQ13, p13⟩, ⟨rQ12, p12⟩, ⟨rQ11, p11⟩, ⟨rQ10, p10⟩, ⟨rQ9, p9⟩, ⟨rQ8, p8⟩, ⟨rQ7, p7⟩, ⟨rQ6, p6⟩, ⟨rQ5, p5⟩, ⟨rQ4, p4⟩, ⟨rQ3, p3⟩, ⟨rQ2, p2⟩, ⟨rQ1, p1⟩, ⟨rQ0, p0⟩] S512x64.size (by rfl) y

set_option maxHeartbeats 16000000 in
/-- The body on whole staging buffers, the inputs' holding `x0 x1 x2` and the output's anything, runs to the end with the
    inputs' unchanged and the output's holding the sixteen heads' strips. -/
theorem sound_kernel1 (c : Dev nD) (E : Set ℕ) (i : grid1.Coords) (arg1 : Memref sig .tc .vmem S512x1024 .bf16) (harg1 : arg1.IsWhole) (arg2 : Memref sig .tc .vmem S2048x1024 .bf16) (harg2 : arg2.IsWhole) (arg3 : Memref sig .tc .vmem S2048x1024 .bf16) (harg3 : arg3.IsWhole) (arg4 : Memref sig .tc .vmem S512x1024 .bf16) (harg4 : arg4.IsWhole)
    (x0 : Vec F S512x1024 .bf16) (x1 : Vec F S2048x1024 .bf16) (x2 : Vec F S2048x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _ _ _ _ _ _ _ _ _ _ _ _ _ _ _ _)

/-- The pipeline's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIFrame2.lean ====
/-
  The output projection, one grid point at a time. At a point the body reads a block of 512 rows of the attention
  output, the whole weight and the whole bias, and writes the block of 512 rows of (rows · weightᵀ + bias). This module
  states what the output buffer holds after the body as a function of the three input blocks, proves that the body
  leaves exactly that, and packages it as the pipeline's per-point obligation.
-/
import proofs.«127907_j34505767256262_2_alg».proof.Proof.Gen.KernelIdeal.Launch
import proofs.«127907_j34505767256262_2_alg».proof.Proof.Gen.KernelIdeal.Skeleton
import proofs.«127907_j34505767256262_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, cut out of its array as the kernel call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole rows block, the whole weight, the whole bias. -/
abbrev rRows2 : Rect S512x1024 := Rect.unit (s := S512x1024) ![0, 0] S512x1024.size inb_S512x1024_S512x1024_0_0
abbrev rWgt2 : Rect S1024x1024 := Rect.unit (s := S1024x1024) ![0, 0] S1024x1024.size inb_S1024x1024_S1024x1024_0_0
abbrev rBias2 : Rect S1024 := Rect.unit (s := S1024) ![0] S1024.size inb_S1024_S1024_0

/-- The output block after the body: one store of the whole block. -/
def out2_3 (x0 : Vec F S512x1024 .bf16) (x1 : Vec F S1024x1024 .bf16) (x2 : Vec F S1024 .f32) : Vec F S512x1024 .f32 :=
  View.canon [⟨rRows2, k2_pay1 (View.ld x0 rRows2) (View.ld x1 rWgt2) (View.ld x2 rBias2)⟩]

/-- One store of the whole block covers it. -/
theorem cover2 (p0 : Vec F S512x1024 .f32) (y : S512x1024.Idx) :
    ∃ pc ∈ ([⟨rRows2, p0⟩] : List (View.Piece (Elt F) S512x1024 .f32)), y ∈ pc.1.set :=
  View.cover_of_tiled [⟨rRows2, p0⟩] S512x1024.size (by rfl) y

set_option maxHeartbeats 4000000 in
/-- The body on whole staging buffers, the inputs' holding `x0 x1 x2` and the output's anything, runs to the end with the
    inputs' unchanged and the output's holding the projection of the rows block. -/
theorem sound_kernel2 (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The pipeline's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KIRun.lean ====
/-
  The whole program as a run: four host operations (two stackings of three arrays, two changes of float format), then
  the three kernel calls one after the other. The contents of every buffer between two items are named — the launch
  memory, then the host operations' results, then after each kernel call its arrays at what its pipeline leaves and
  everything else untouched — and the run theorem says: every fair execution terminates without a fault with every
  unscoped buffer at the last of these contents. The frame (arguments unchanged) and the result's value are both read
  off that one statement.
-/
import proofs.«127907_j34505767256262_2_alg».proof.Proof.Gen.KernelIdeal.Launch
import proofs.«127907_j34505767256262_2_alg».proof.Proof.Gen.KernelIdeal.Skeleton
import proofs.«127907_j34505767256262_2_alg».proof.Proof.Gen.KernelIdeal.Points
import proofs.«127907_j34505767256262_2_alg».proof.Proof.KIFrame0
import proofs.«127907_j34505767256262_2_alg».proof.Proof.KIFrame1
import proofs.«127907_j34505767256262_2_alg».proof.Proof.KIFrame2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After kernel call 0: its arrays at what the pipeline leaves (inputs as entered, each output's blocks written back),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After kernel call 1: its arrays at what the pipeline leaves (inputs as entered, each output's blocks written back),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After kernel call 2: its arrays at what the pipeline leaves (inputs as entered, each output's blocks written back),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- No kernel call has a prefetched table. -/
abbrev adm : (p : Fin 3) → (pcfgs (F := F) p).Adm := fun p => (cfgs p).toPCfg_adm
/-- Every pipeline's proof data, each at the contents its kernel call is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every item: the random-number generator's register at some state, and nothing owed. -/
abbrev R (c : Dev nD) : sProp 𝕄 := iprop((∃ r, prngReg c r) ∗ ∃ W, owes (c : Thread nD τ) (0 : CellTallies nD τ sig Unit) W)
/-- A line of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped reference is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the owing: every unscoped buffer at the last contents, the random-number generator's register. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- Kernel call 0 as a segment: entered with every unscoped buffer at the contents before it, left with them at the
    contents after it. Its arrays are split out of the unscoped buffers on entry and put back, at what the pipeline
    leaves, on exit; the random-number generator's register goes into the pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 1 as a segment: entered with every unscoped buffer at the contents before it, left with them at the
    contents after it. Its arrays are split out of the unscoped buffers on entry and put back, at what the pipeline
    leaves, on exit; the random-number generator's register goes into the pipeline's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 2 as a segment: entered with every unscoped buffer at the contents before it, left with them at the
    contents after it. Its arrays are split out of the unscoped buffers on entry and put back, at what the pipeline
    leaves, on exit; the random-number generator's register goes into the pipeline's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- The program is the run of its items. -/
theorem main_run (c : Dev nD) : main (F := F) c = Pipeline.Seg.run (segs m ρ) := (main_chain c).trans (by chain_rfl)

set_option backward.isDefEq.respectTransparency.types false in
/-- THE RUN: from any memory with zero counters every fair execution terminates, nothing faulting, and in every final
    state each unscoped buffer of each core holds the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Fr

end
-- ==== Proof.KIKept.lean ====
/-
  No item of the program changes an argument array: the host operations write only their own four results, and a
  kernel call changes only its output arrays (an argument it reads through an input window comes back as entered). So
  the last contents of each argument buffer are the launch contents, and the run gives the frame: every fair execution
  terminates without a fault with the nine arguments unchanged.
-/
import proofs.«127907_j34505767256262_2_alg».proof.Proof.Gen.KernelIdeal.Launch
import proofs.«127907_j34505767256262_2_alg».proof.Proof.Gen.KernelIdeal.Skeleton
import proofs.«127907_j34505767256262_2_alg».proof.Proof.Gen.KernelIdeal.Points
import proofs.«127907_j34505767256262_2_alg».proof.Proof.KIRun
import proofs.«127907_j34505767256262_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer the host operations do not write holds its launch contents after them. -/
theorem W1_keep (c : Dev nD) (r : Ref sig .tc) (h : r ∉ Gen.hostOps0_W) : W1 m ρ c r = W0 m ρ c r :=
  StableHlo.after_of_writes_sub hostOps0 _ Gen.hostOps0_writes h

/-- A buffer that is no kernel call's array and no host result ends at its launch contents. -/
theorem W4_keep (c : Dev nD) (r : Ref sig .tc) (h0 : ∀ w, Pipeline.arrRef spec0 w ≠ r) (h1 : ∀ w, Pipeline.arrRef spec1 w ≠ r)
    (h2 : ∀ w, Pipeline.arrRef spec2 w ≠ r) (hh : r ∉ Gen.hostOps0_W) :
    W4 m ρ c (Proc.devRef .tc r) = m ((c : Thread nD τ).loc r) :=
  (W4_of_ne m ρ c r h2).trans <| (W3_of_ne m ρ c r h1).trans <| (W2_of_ne m ρ c r h0).trans <| (W1_keep m ρ c r hh).trans rfl

theorem W4_main_arg1 (c : Dev nD) : W4 m ρ c (Proc.devRef .tc main_arg1) = m ((c : Thread nD τ).loc main_arg1) :=
  W4_keep m ρ c main_arg1 (by decide) (by decide) (by decide) (by decide)
theorem W4_main_arg2 (c : Dev nD) : W4 m ρ c (Proc.devRef .tc main_arg2) = m ((c : Thread nD τ).loc main_arg2) :=
  W4_keep m ρ c main_arg2 (by decide) (by decide) (by decide) (by decide)
theorem W4_main_arg3 (c : Dev nD) : W4 m ρ c (Proc.devRef .tc main_arg3) = m ((c : Thread nD τ).loc main_arg3) :=
  W4_keep m ρ c main_arg3 (by decide) (by decide) (by decide) (by decide)
theorem W4_main_arg4 (c : Dev nD) : W4 m ρ c (Proc.devRef .tc main_arg4) = m ((c : Thread nD τ).loc main_arg4) :=
  W4_keep m ρ c main_arg4 (by decide) (by decide) (by decide) (by decide)
theorem W4_main_arg5 (c : Dev nD) : W4 m ρ c (Proc.devRef .tc main_arg5) = m ((c : Thread nD τ).loc main_arg5) :=
  W4_keep m ρ c main_arg5 (by decide) (by decide) (by decide) (by decide)
theorem W4_main_arg6 (c : Dev nD) : W4 m ρ c (Proc.devRef .tc main_arg6) = m ((c : Thread nD τ).loc main_arg6) :=
  W4_keep m ρ c main_arg6 (by decide) (by decide) (by decide) (by decide)
theorem W4_main_arg7 (c : Dev nD) : W4 m ρ c (Proc.devRef .tc main_arg7) = m ((c : Thread nD τ).loc main_arg7) :=
  W4_keep m ρ c main_arg7 (by decide) (by decide) (by decide) (by decide)

/-- The input rows: the first kernel call reads them through an input window and leaves them as entered. -/
theorem W4_main_arg0 (c : Dev nD) : W4 m ρ c (Proc.devRef .tc main_arg0) = m ((c : Thread nD τ).loc main_arg0) :=
  (W4_of_ne m ρ c main_arg0 (by decide)).trans <| (W3_of_ne m ρ c main_arg0 (by decide)).trans <|
    ((W2_arr m ρ c 0).trans (((dat0 (V1 m ρ) c).arrAt_in 0 rfl _).trans (A_eq0 (V1 m ρ) c 0))).trans <|
    (W1_keep m ρ c main_arg0 (by decide)).trans rfl

/-- The output bias: the last kernel call reads it through an input window and leaves it as entered. -/
theorem W4_main_arg8 (c : Dev nD) : W4 m ρ c (Proc.devRef .tc main_arg8) = m ((c : Thread nD τ).loc main_arg8) :=
  ((W4_arr m ρ c 2).trans (((dat2 (V3 m ρ) c).arrAt_in 2 rfl _).trans (A_eq2 (V3 m ρ) c 2))).trans <|
    (W3_of_ne m ρ c main_arg8 (by decide)).trans <| (W2_of_ne m ρ c main_arg8 (by decide)).trans <|
    (W1_keep m ρ c main_arg8 (by decide)).trans rfl

/-- THE FRAME: every fair execution terminates without a fault and leaves the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.KernelIdeal.Fr

end
-- ==== Proof.LibNary3.lean ====
/-
  A host operation with a literal family of THREE operands (a concatenate of three arrays), read after it ran.
  The generic rule leaves operand k's contents at the reference "the k-th entry of the family", under a binder, where it
  is no longer a literal reference and no further result rule can look through it. Here the three contents are placed
  at their own literal references, so that reading a buffer after a line of operations can continue through each
  operand's own history.
-/
import Idealize.ShloMosaic.Lib.StableHlo.Run

noncomputable section

namespace Cert.LibNary3

open Idealize.ShloMosaic Idealize.ShloMosaic.StableHlo

variable {τ : Topo} {sig : RefSig} {Val : EltTy → Type}
variable {x a b y : Ref sig .tc}

/-- What a three-operand operation leaves in its result buffer: its function of the three operands' contents, each
    read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for a rewriting pass that must not key on the result reference's projections. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The third entry of a family built by prepending: the second entry of its tail. -/
theorem cons_two {α : Fin 3 → Type} (x : α 0) (p : (i : Fin 2) → α i.succ) :
    (Fin.cons x p : (i : Fin 3) → α i) 2 = p 1 := rfl

end Cert.LibNary3

/-- Reading a buffer after a line of host operations in one rewriting pass, for lines whose many-operand operations all have
    three operands (each read by the rule above, so that the pass continues into the operands' own histories). -/
macro "after_results3" : tactic =>
  `(tactic| (simp (disch := decide) only [Idealize.ShloMosaic.StableHlo.after_cons, Idealize.ShloMosaic.StableHlo.after_nil,
      Cert.LibNary3.nary3_result', Fin.cons_zero, Fin.cons_one, Cert.LibNary3.cons_two,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

end
-- ==== Proof.KIHost.lean ====
/-
  What the four host operations before the kernel calls leave in their buffers, read one element at a time.

  The three weight arrays are stacked one above the other: rows 0 … 1023 of the stack are the query weights, rows
  1024 … 2047 the key weights, rows 2048 … 3071 the value weights; the three bias vectors are stacked the same way.
  A change of float format is the identity on the extended reals, so the stack of weights and the output weights
  pass through it unchanged. No host operation writes an argument.
-/
import proofs.«127907_j34505767256262_2_alg».proof.Proof.KIRun
import proofs.«127907_j34505767256262_2_alg».proof.Proof.LibNary3
import Idealize.ShloMosaic.Lib.Pipeline.Value
import Idealize.ShloMosaic.Lib.ValueIdx
import Idealize.ShloMosaic.Lib.StableHlo.Run

noncomputable section

namespace Cert.KernelIdeal.Host

open Cert.KernelIdeal Cert.KernelIdeal.Gen Cert.KernelIdeal.Fr Idealize.ShloMosaic Idealize.ShloMosaic.TcCoe Idealize.ShloMosaic.ValueIdx

/-! ## The arguments are kept -/

section Kept

variable {F : FTy → Type} [FloatOps F]
variable (m : (ℓ : Loc nD τ sig) → Buf (Elt F) ℓ) (ρ : Dev nD → PrngReg) (c : Dev nD)

/-- No host operation writes argument 0: it holds its launch contents. -/
theorem kept_arg0 : W1 m ρ c (Proc.devRef .tc main_arg0) = m ((c : Thread nD τ).loc main_arg0) := by
  show StableHlo.after hostOps0 (W0 m ρ c) (Proc.devRef .tc main_arg0) = _
  after_results3
/-- Argument 1 holds its launch contents. -/
theorem kept_arg1 : W1 m ρ c (Proc.devRef .tc main_arg1) = m ((c : Thread nD τ).loc main_arg1) := by
  show StableHlo.after hostOps0 (W0 m ρ c) (Proc.devRef .tc main_arg1) = _
  after_results3
/-- Argument 2 holds its launch contents. -/
theorem kept_arg2 : W1 m ρ c (Proc.devRef .tc main_arg2) = m ((c : Thread nD τ).loc main_arg2) := by
  show StableHlo.after hostOps0 (W0 m ρ c) (Proc.devRef .tc main_arg2) = _
  after_results3
/-- Argument 3 holds its launch contents. -/
theorem kept_arg3 : W1 m ρ c (Proc.devRef .tc main_arg3) = m ((c : Thread nD τ).loc main_arg3) := by
  show StableHlo.after hostOps0 (W0 m ρ c) (Proc.devRef .tc main_arg3) = _
  after_results3
/-- Argument 4 holds its launch contents. -/
theorem kept_arg4 : W1 m ρ c (Proc.devRef .tc main_arg4) = m ((c : Thread nD τ).loc main_arg4) := by
  show StableHlo.after hostOps0 (W0 m ρ c) (Proc.devRef .tc main_arg4) = _
  after_results3
/-- Argument 5 holds its launch contents. -/
theorem kept_arg5 : W1 m ρ c (Proc.devRef .tc main_arg5) = m ((c : Thread nD τ).loc main_arg5) := by
  show StableHlo.after hostOps0 (W0 m ρ c) (Proc.devRef .tc main_arg5) = _
  after_results3
/-- Argument 6 holds its launch contents. -/
theorem kept_arg6 : W1 m ρ c (Proc.devRef .tc main_arg6) = m ((c : Thread nD τ).loc main_arg6) := by
  show StableHlo.after hostOps0 (W0 m ρ c) (Proc.devRef .tc main_arg6) = _
  after_results3
/-- Argument 7 holds its launch contents. -/
theorem kept_arg7 : W1 m ρ c (Proc.devRef .tc main_arg7) = m ((c : Thread nD τ).loc main_arg7) := by
  show StableHlo.after hostOps0 (W0 m ρ c) (Proc.devRef .tc main_arg7) = _
  after_results3
/-- Argument 8 holds its launch contents. -/
theorem kept_arg8 : W1 m ρ c (Proc.devRef .tc main_arg8) = m ((c : Thread nD τ).loc main_arg8) := by
  show StableHlo.after hostOps0 (W0 m ρ c) (Proc.devRef .tc main_arg8) = _
  after_results3

end Kept

variable (m : (ℓ : Loc nD τ sig) → Buf (Elt Ideal) ℓ) (ρ : Dev nD → PrngReg) (c : Dev nD)

/-! ## The stacked weights -/

/-- The stack of weights, in the narrower float format, is the three weight arrays one above the other. -/
theorem v1_eq :
    (W1 (F := Ideal) m ρ c (Proc.devRef .tc main_v1) : S3072x1024.Idx → EReal)
      = concatenate S3072x1024 0 [⟨S1024x1024, m ((c : Thread nD τ).loc main_arg1)⟩,
          ⟨S1024x1024, m ((c : Thread nD τ).loc main_arg3)⟩, ⟨S1024x1024, m ((c : Thread nD τ).loc main_arg5)⟩]
          concatenates_S1024x1024_S1024x1024_S1024x1024_S3072x1024_d0 := by
  show StableHlo.after hostOps0 (W0 m ρ c) (Proc.devRef .tc main_v1) = _
  after_results3
  rfl

/-- Row `j` of the stack is row `j` of the query weights. -/
theorem w_q (j k : Fin 1024) :
    W1 (F := Ideal) m ρ c (Proc.devRef .tc main_v1) (ix2 (⟨j.val, by omega⟩ : Fin 3072) k)
      = m ((c : Thread nD τ).loc main_arg1) (ix2 j k) := by
  refine (congrFun (v1_eq m ρ c) (ix2 (⟨j.val, by omega⟩ : Fin 3072) k)).trans ?_
  exact concatenate_apply_piece (0 : Fin S3072x1024.rank) _ _ _ 0 (by show (0 : ℕ) < 3; omega) S1024x1024 _ rfl rfl 0 rfl (ix2 j k)
    (fun b hb => by
      match b with
      | ⟨0, _⟩ => exact absurd rfl hb
      | ⟨1, _⟩ => rfl)
    (Nat.zero_add _)

/-- Row `1024 + j` of the stack is row `j` of the key weights. -/
theorem w_k (j k : Fin 1024) :
    W1 (F := Ideal) m ρ c (Proc.devRef .tc main_v1) (ix2 (⟨1024 + j.val, by omega⟩ : Fin 3072) k)
      = m ((c : Thread nD τ).loc main_arg3) (ix2 j k) := by
  refine (congrFun (v1_eq m ρ c) (ix2 (⟨1024 + j.val, by omega⟩ : Fin 3072) k)).trans ?_
  exact concatenate_apply_piece (0 : Fin S3072x1024.rank) _ _ _ 1 (by show (1 : ℕ) < 3; omega) S1024x1024 _ rfl rfl 1024 rfl (ix2 j k)
    (fun b hb => by
      match b with
      | ⟨0, _⟩ => exact absurd rfl hb
      | ⟨1, _⟩ => rfl)
    rfl

/-- Row `2048 + j` of the stack is row `j` of the value weights. -/
theorem w_v (j k : Fin 1024) :
    W1 (F := Ideal) m ρ c (Proc.devRef .tc main_v1) (ix2 (⟨2048 + j.val, by omega⟩ : Fin 3072) k)
      = m ((c : Thread nD τ).loc main_arg5) (ix2 j k) := by
  refine (congrFun (v1_eq m ρ c) (ix2 (⟨2048 + j.val, by omega⟩ : Fin 3072) k)).trans ?_
  exact concatenate_apply_piece (0 : Fin S3072x1024.rank) _ _ _ 2 (by show (2 : ℕ) < 3; omega) S1024x1024 _ rfl rfl 2048 rfl (ix2 j k)
    (fun b hb => by
      match b with
      | ⟨0, _⟩ => exact absurd rfl hb
      | ⟨1, _⟩ => rfl)
    rfl

/-! ## The stacked biases -/

/-- The stack of biases is the three bias vectors one after the other. -/
theorem v2_eq :
    (W1 (F := Ideal) m ρ c (Proc.devRef .tc main_v2) : S3072.Idx → EReal)
      = concatenate S3072 0 [⟨S1024, m ((c : Thread nD τ).loc main_arg2)⟩,
          ⟨S1024, m ((c : Thread nD τ).loc main_arg4)⟩, ⟨S1024, m ((c : Thread nD τ).loc main_arg6)⟩]
          concatenates_S1024_S1024_S1024_S3072_d0 := by
  show StableHlo.after hostOps0 (W0 m ρ c) (Proc.devRef .tc main_v2) = _
  after_results3
  rfl

/-- Entry `j` of the stack is entry `j` of the query bias. -/
theorem b_q (j : Fin 1024) :
    W1 (F := Ideal) m ρ c (Proc.devRef .tc main_v2) (ix1 (⟨j.val, by omega⟩ : Fin 3072))
      = m ((c : Thread nD τ).loc main_arg2) (ix1 j) := by
  refine (congrFun (v2_eq m ρ c) (ix1 (⟨j.val, by omega⟩ : Fin 3072))).trans ?_
  exact concatenate_apply_piece (0 : Fin S3072.rank) _ _ _ 0 (by show (0 : ℕ) < 3; omega) S1024 _ rfl rfl 0 rfl (ix1 j)
    (fun b hb => by
      match b with
      | ⟨0, _⟩ => exact absurd rfl hb)
    (Nat.zero_add _)

/-- Entry `1024 + j` of the stack is entry `j` of the key bias. -/
theorem b_k (j : Fin 1024) :
    W1 (F := Ideal) m ρ c (Proc.devRef .tc main_v2) (ix1 (⟨1024 + j.val, by omega⟩ : Fin 3072))
      = m ((c : Thread nD τ).loc main_arg4) (ix1 j) := by
  refine (congrFun (v2_eq m ρ c) (ix1 (⟨1024 + j.val, by omega⟩ : Fin 3072))).trans ?_
  exact concatenate_apply_piece (0 : Fin S3072.rank) _ _ _ 1 (by show (1 : ℕ) < 3; omega) S1024 _ rfl rfl 1024 rfl (ix1 j)
    (fun b hb => by
      match b with
      | ⟨0, _⟩ => exact absurd rfl hb)
    rfl

/-- Entry `2048 + j` of the stack is entry `j` of the value bias. -/
theorem b_v (j : Fin 1024) :
    W1 (F := Ideal) m ρ c (Proc.devRef .tc main_v2) (ix1 (⟨2048 + j.val, by omega⟩ : Fin 3072))
      = m ((c : Thread nD τ).loc main_arg6) (ix1 j) := by
  refine (congrFun (v2_eq m ρ c) (ix1 (⟨2048 + j.val, by omega⟩ : Fin 3072))).trans ?_
  exact concatenate_apply_piece (0 : Fin S3072.rank) _ _ _ 2 (by show (2 : ℕ) < 3; omega) S1024 _ rfl rfl 2048 rfl (ix1 j)
    (fun b hb => by
      match b with
      | ⟨0, _⟩ => exact absurd rfl hb)
    rfl

/-! ## The output weights -/

/-- The output weights in the narrower float format are the output weights. -/
theorem w_o :
    (W1 (F := Ideal) m ρ c (Proc.devRef .tc main_v3) : S1024x1024.Idx → EReal) = m ((c : Thread nD τ).loc main_arg7) := by
  show StableHlo.after hostOps0 (W0 m ρ c) (Proc.devRef .tc main_v3) = _
  after_results3
  rfl

end Cert.KernelIdeal.Host

end
-- ==== Proof.LibDotNT.lean ====
/-
  The product of an [M, K] array with an [N, K] array contracted along the second axis of both, read at one entry.

  Whatever record carries the dimension numbers of such a product (contract the left operand's columns with the right
  operand's columns, no batch axis: the left operand times the transpose of the right one), entry (p, q) of a kernel's
  product into a zero accumulator, and of a host program's product, is the sum over k of left (p, k) times right (q, k):
  it depends on the left operand through row p alone and on the right operand through row q alone.
-/
import Idealize.ShloMosaic.Lib.ValueIdx
import Idealize.ShloMosaic.PureOps.Ideal.Laws

noncomputable section

namespace Cert.DotNT

open Idealize.ShloMosaic Idealize.ShloMosaic.ValueIdx

variable {M K N : ℕ}

/-- The dimension numbers of an M×K by N×K product contracted along the second axis of both operands. -/
structure IsNT (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- The contraction's sum, re-indexed by the one contracted coordinate. -/
theorem contr_sum (d : DotDims ⟨2, ![M, K]⟩ ⟨2, ![N, K]⟩ ⟨2, ![M, N]⟩) (hd : IsNT d)
    (lhs : (⟨2, ![M, K]⟩ : Shape).Idx → EReal) (rhs : (⟨2, ![N, K]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 q k) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = d
  have hlc : d.lhsContracting = [1] := by rw [← hD]
  have hrc : d.rhsContracting = [1] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ =>
      subst hD
      unfold DotDims.rhsIdx
      dsimp only
      repeat' split
      all_goals first | rfl | (exfalso; simp_all)
    | ⟨1, _⟩ => exact (d.rhsIdx_val_of_single hrc _ _).trans hk)
  rw [el, er]

/-- A kernel's product into a zero accumulator at entry (p, q). -/
theorem matmul_apply {φ₁ φ₂ : FTy} (d : DotDims ⟨2, ![M, K]⟩ ⟨2, ![N, K]⟩ ⟨2, ![M, N]⟩) (hd : IsNT d)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![N, K]⟩ ⟨2, ![M, N]⟩) (hd : IsNT d)
    (prec : Option ContractPrecision) (lhs : FVec Ideal ⟨2, ![M, K]⟩ φ₁) (rhs : FVec Ideal ⟨2, ![N, K]⟩ φ₂) (p : Fin M) (q : Fin N) :
    Host.dotGeneral d prec lhs rhs (ix2 p q) = ∑ k : Fin K, lhs (ix2 p k) * rhs (ix2 q k) := by
  show FloatOps.dotGeneral d prec _ lhs rhs (ix2 p q) = _
  rw [Ideal.dotGeneral_apply]
  exact contr_sum d hd lhs rhs p q

end Cert.DotNT

end
-- ==== Proof.PayProj.lean ====
/-
  The two linear kernels' stored values, read at one entry.

  The first kernel stores three column bands of one product: the block of inputs times the transpose of the
  stacked weights, plus the stacked bias along the rows. Entry (p, q) of band number i (i = 0, 1, 2) is row p of the
  inputs against row 1024 i + q of the weights, plus the bias at 1024 i + q. The last kernel stores the attention
  output times the transpose of its weights plus its bias. At the extended reals the format changes are the
  identity, so nothing else is left.
-/
import proofs.«127907_j34505767256262_2_alg».proof.Proof.Gen.KernelIdeal.Skeleton
import proofs.«127907_j34505767256262_2_alg».proof.Proof.LibDotNT
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The whole product of the first kernel at entry (p, c): row p of the inputs against row c of the stacked
    weights, plus the stacked bias at c. -/
theorem k0_pay1_apply (x0 : Vec Ideal S512x1024 .f32) (w : Vec Ideal S3072x1024 .bf16) (b : Vec Ideal S3072 .f32)
    (p : Fin 512) (c : Fin 3072) :
    k0_pay1 (F := Ideal) x0 w b (ix2 p c) = (∑ k : Fin 1024, x0 (ix2 p k) * w (ix2 c k)) + b (ix1 c) := by
  unfold k0_pay1
  rw [truncf_apply, addf_apply, shapeCast_self, shapeCast_self,
    Cert.DotNT.matmul_apply _ ⟨rfl, rfl, rfl, rfl, rfl, rfl⟩, broadcastTo_1b_ab_apply, shapeCast_a_1a_apply]
  rfl

/-- The first band: columns 0 to 1023. -/
theorem k0_pay2_apply (x0 : Vec Ideal S512x1024 .f32) (w : Vec Ideal S3072x1024 .bf16) (b : Vec Ideal S3072 .f32)
    (p : Fin 512) (q : Fin 1024) :
    k0_pay2 (F := Ideal) x0 w b (ix2 p q)
      = (∑ k : Fin 1024, x0 (ix2 p k) * w (ix2 (⟨q.val, by omega⟩ : Fin 3072) k)) + b (ix1 (⟨q.val, by omega⟩ : Fin 3072)) := by
  unfold k0_pay2
  refine (slice2_axis1_apply 0 (k0_pay1 (F := Ideal) x0 w b) _ p q (⟨q.val, by omega⟩ : Fin 3072) (Nat.zero_add _).symm).trans ?_
  exact k0_pay1_apply x0 w b p _

/-- The second band: columns 1024 to 2047. -/
theorem k0_pay3_apply (x0 : Vec Ideal S512x1024 .f32) (w : Vec Ideal S3072x1024 .bf16) (b : Vec Ideal S3072 .f32)
    (p : Fin 512) (q : Fin 1024) :
    k0_pay3 (F := Ideal) x0 w b (ix2 p q)
      = (∑ k : Fin 1024, x0 (ix2 p k) * w (ix2 (⟨1024 + q.val, by omega⟩ : Fin 3072) k))
          + b (ix1 (⟨1024 + q.val, by omega⟩ : Fin 3072)) := by
  unfold k0_pay3
  refine (slice2_axis1_apply 1024 (k0_pay1 (F := Ideal) x0 w b) _ p q (⟨1024 + q.val, by omega⟩ : Fin 3072) rfl).trans ?_
  exact k0_pay1_apply x0 w b p _

/-- The third band: columns 2048 to 3071. -/
theorem k0_pay4_apply (x0 : Vec Ideal S512x1024 .f32) (w : Vec Ideal S3072x1024 .bf16) (b : Vec Ideal S3072 .f32)
    (p : Fin 512) (q : Fin 1024) :
    k0_pay4 (F := Ideal) x0 w b (ix2 p q)
      = (∑ k : Fin 1024, x0 (ix2 p k) * w (ix2 (⟨2048 + q.val, by omega⟩ : Fin 3072) k))
          + b (ix1 (⟨2048 + q.val, by omega⟩ : Fin 3072)) := by
  unfold k0_pay4
  refine (slice2_axis1_apply 2048 (k0_pay1 (F := Ideal) x0 w b) _ p q (⟨2048 + q.val, by omega⟩ : Fin 3072) rfl).trans ?_
  exact k0_pay1_apply x0 w b p _

/-- The output projection at entry (p, q): row p of the attention output against row q of the weights, plus the
    bias at q. -/
theorem k2_pay1_apply (a : Vec Ideal S512x1024 .bf16) (w : Vec Ideal S1024x1024 .bf16) (b : Vec Ideal S1024 .f32)
    (p : Fin 512) (q : Fin 1024) :
    k2_pay1 (F := Ideal) a w b (ix2 p q) = (∑ k : Fin 1024, a (ix2 p k) * w (ix2 q k)) + b (ix1 q) := by
  unfold k2_pay1
  rw [addf_apply, shapeCast_self, shapeCast_self,
    Cert.DotNT.matmul_apply _ ⟨rfl, rfl, rfl, rfl, rfl, rfl⟩, broadcastTo_1b_ab_apply, shapeCast_a_1a_apply]

end Cert.KernelIdeal.Pay

end
-- ==== Proof.KIVal0.lean ====
/-
  What the fused projection leaves in its three output arrays, as whole-array functions of what it found in its
  three input arrays: rows · (a band of 1024 rows of the stacked weight)ᵀ + the same band of the stacked bias. A grid
  point writes back a block of 512 rows; block `t` of the function is what point `t` wrote, and the four blocks cover
  the 2048 rows.
-/
import proofs.«127907_j34505767256262_2_alg».proof.Proof.KIFrame0
import proofs.«127907_j34505767256262_2_alg».proof.Proof.PayProj
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The band of the stacked weight each output takes: rows 0…, 1024…, 2048…. -/
def rowQ (q : Fin 1024) : Fin 3072 := ⟨q.val, by omega⟩
def rowK (q : Fin 1024) : Fin 3072 := ⟨1024 + q.val, by omega⟩
def rowV (q : Fin 1024) : Fin 3072 := ⟨2048 + q.val, by omega⟩

/-- Rows · (band of the stacked weight)ᵀ + band of the stacked bias. -/
def lin (r : Fin 1024 → Fin 3072) (X : S2048x1024.Idx → EReal) (W : S3072x1024.Idx → EReal) (b : S3072.Idx → EReal) :
    S2048x1024.Idx → EReal :=
  fun i => (∑ k : Fin 1024, X (ix2 (i 0) k) * W (ix2 (r (i 1)) k)) + b (ix1 (r (i 1)))

/-- The printed index maps over the grid: the rows block and the three output blocks move with the point, the weight
    and the bias stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem lt4 (t : Fin cfg0.N) : t.val < 4 := lt_of_lt_of_eq t.isLt (show cfg0.N = 4 from N_0)

/-- Row `p` of block `t` is row `512 t + p` of the array. -/
def rowAt (t : Fin cfg0.N) (p : Fin 512) : Fin 2048 := ⟨t.val * 512 + p.val, by have := lt4 t; omega⟩

variable (V : (c : Dev nD) → (b : Ref sig .tc) → Buf (Elt Ideal) ((c : Thread nD τ).loc b))

/-- The rows block read at (p, k). -/
theorem blk0_0 (c : Dev nD) (t : Fin cfg0.N) (p : Fin 512) (k : Fin 1024) :
    iblk0 V c 0 t (ix2 p k) = V c main_arg0 (ix2 (rowAt t p) k) := by
  show V c main_arg0 (((cfg0.win 0).blk t).view.emb (ix2 p k)) = _
  refine congrArg (V c main_arg0) (funext fun a => Fin.ext ?_)
  obtain ⟨e0, e1, -⟩ := idx0 t
  match a with
  | ⟨0, _⟩ => show win0_0.index t (0 : Fin 2) * 512 + 1 * p.val = t.val * 512 + p.val; omega
  | ⟨1, _⟩ => show win0_0.index t (1 : Fin 2) * 1024 + 1 * k.val = k.val; omega

/-- The weight block is the whole weight. -/
theorem blk0_1 (c : Dev nD) (t : Fin cfg0.N) (r : Fin 3072) (k : Fin 1024) :
    iblk0 V c 1 t (ix2 r k) = V c main_v1 (ix2 r k) := by
  show V c main_v1 (((cfg0.win 1).blk t).view.emb (ix2 r k)) = _
  refine congrArg (V c main_v1) (funext fun a => Fin.ext ?_)
  obtain ⟨-, -, e2, e3, -⟩ := idx0 t
  match a with
  | ⟨0, _⟩ => show win0_1.index t (0 : Fin 2) * 3072 + 1 * r.val = r.val; omega
  | ⟨1, _⟩ => show win0_1.index t (1 : Fin 2) * 1024 + 1 * k.val = k.val; omega

/-- The bias block is the whole bias. -/
theorem blk0_2 (c : Dev nD) (t : Fin cfg0.N) (r : Fin 3072) :
    iblk0 V c 2 t (ix1 r) = V c main_v2 (ix1 r) := by
  show V c main_v2 (((cfg0.win 2).blk t).view.emb (ix1 r)) = _
  refine congrArg (V c main_v2) (funext fun a => Fin.ext ?_)
  obtain ⟨-, -, -, -, e4, -⟩ := idx0 t
  match a with
  | ⟨0, _⟩ => show win0_2.index t (0 : Fin 1) * 3072 + 1 * r.val = r.val; omega

/-- The function at row `P`, column `q`, from blocks that are restrictions of the three arrays. -/
theorem lin_at (r : Fin 1024 → Fin 3072) (X : S2048x1024.Idx → EReal) (W : S3072x1024.Idx → EReal) (b : S3072.Idx → EReal)
    (x0 : Vec Ideal S512x1024 .f32) (w : Vec Ideal S3072x1024 .bf16) (bb : Vec Ideal S3072 .f32) (P : Fin 2048) (p : Fin 512) (q : Fin 1024)
    (h0 : ∀ k, x0 (ix2 p k) = X (ix2 P k)) (h1 : ∀ r' k, w (ix2 r' k) = W (ix2 r' k)) (h2 : ∀ r', bb (ix1 r') = b (ix1 r')) :
    (∑ k : Fin 1024, x0 (ix2 p k) * w (ix2 (r q) k)) + bb (ix1 (r q)) = lin r X W b (ix2 P q) := by
  unfold lin
  rw [h2]
  refine congrArg (· + _) (Finset.sum_congr rfl fun k _ => ?_)
  rw [h0, h1]

/-- What point `t` writes back into the query array is block `t` of the function. -/
theorem flushed0_3_eq (c : Dev nD) (t : Fin cfg0.N) :
    (dat0 (F := Ideal) V c).flushed 3 t
      = ((cfg0.win 3).blk t).view.read (Elt Ideal) (lin rowQ (V c main_arg0) (V c main_v1) (V c main_v2)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S3072x1024) hz2, View.ld_unit_zero (S := S3072) hz1]
  funext y
  obtain ⟨p, q, rfl⟩ : ∃ (p : Fin 512) (q : Fin 1024), y = ix2 p q := ⟨y 0, y 1, eq_ix2 y⟩
  show k0_pay2 (F := Ideal) (iblk0 V c 0 t) (iblk0 V c 1 t) (iblk0 V c 2 t) (ix2 p q)
      = lin rowQ (V c main_arg0) (V c main_v1) (V c main_v2) (((cfg0.win 3).blk t).view.emb (ix2 p q))
  refine (Cert.KernelIdeal.Pay.k0_pay2_apply (iblk0 V c 0 t) (iblk0 V c 1 t) (iblk0 V c 2 t) p q).trans ?_
  refine (lin_at rowQ (V c main_arg0) (V c main_v1) (V c main_v2) (iblk0 V c 0 t) (iblk0 V c 1 t) (iblk0 V c 2 t) (rowAt t p) p q
    (blk0_0 V c t p) (blk0_1 V c t) (blk0_2 V c t)).trans (congrArg (lin rowQ (V c main_arg0) (V c main_v1) (V c main_v2)) (funext fun a => Fin.ext ?_))
  obtain ⟨-, -, -, -, -, e5, e6, -⟩ := idx0 t
  match a with
  | ⟨0, _⟩ => show t.val * 512 + p.val = win0_3.index t (0 : Fin 2) * 512 + 1 * p.val; omega
  | ⟨1, _⟩ => show q.val = win0_3.index t (1 : Fin 2) * 1024 + 1 * q.val; omega

/-- What point `t` writes back into the key array is block `t` of the function. -/
theorem flushed0_4_eq (c : Dev nD) (t : Fin cfg0.N) :
    (dat0 (F := Ideal) V c).flushed 4 t
      = ((cfg0.win 4).blk t).view.read (Elt Ideal) (lin rowK (V c main_arg0) (V c main_v1) (V c main_v2)) := by
  show (cfg0.win 4).cut (grid0.coords t) ((dat0 V c).after 4 t) = _
  rw [after0_4]
  unfold out0_4
  rw [View.canon_unit_zero hz2]
  simp only [View.ld_unit_zero (S := S512x1024) hz2, View.ld_unit_zero (S := S3072x1024) hz2, View.ld_unit_zero (S := S3072) hz1]
  funext y
  obtain ⟨p, q, rfl⟩ : ∃ (p : Fin 512) (q : Fin 1024), y = ix2 p q := ⟨y 0, y 1, eq_ix2 y⟩
  show k0_pay3 (F := Ideal) (iblk0 V c 0 t) (iblk0 V c 1 t) (iblk0 V c 2 t) (ix2 p q)
      = lin rowK (V c main_arg0) (V c main_v1) (V c main_v2) (((cfg0.win 4).blk t).view.emb (ix2 p q))
  refine (Cert.KernelIdeal.Pay.k0_pay3_apply (iblk0 V c 0 t) (iblk0 V c 1 t) (iblk0 V c 2 t) p q).trans ?_
  refine (lin_at rowK (V c main_arg0) (V c main_v1) (V c main_v2) (iblk0 V c 0 t) (iblk0 V c 1 t) (iblk0 V c 2 t) (rowAt t p) p q
    (blk0_0 V c t p) (blk0_1 V c t) (blk0_2 V c t)).trans (congrArg (lin rowK (V c main_arg0) (V c main_v1) (V c main_v2)) (funext fun a => Fin.ext ?_))
  obtain ⟨-, -, -, -, -, -, -, e5, e6, -⟩ := idx0 t
  match a with
  | ⟨0, _⟩ => show t.val * 512 + p.val = win0_4.index t (0 : Fin 2) * 512 + 1 * p.val; omega
  | ⟨1, _⟩ => show q.val = win0_4.index t (1 : Fin 2) * 1024 + 1 * q.val; omega

/-- What point `t` writes back into the value array is block `t` of the function. -/
theorem flushed0_5_eq (c : Dev nD) (t : Fin cfg0.N) :
    (dat0 (F := Ideal) V c).flushed 5 t
      = ((cfg0.win 5).blk t).view.read (Elt Ideal) (lin rowV (V c main_arg0) (V c main_v1) (V c main_v2)) := by
  show (cfg0.win 5).cut (grid0.coords t) ((dat0 V c).after 5 t) = _
  rw [after0_5]
  unfold out0_5
  rw [View.canon_unit_zero hz2]
  simp only [View.ld_unit_zero (S := S512x1024) hz2, View.ld_unit_zero (S := S3072x1024) hz2, View.ld_unit_zero (S := S3072) hz1]
  funext y
  obtain ⟨p, q, rfl⟩ : ∃ (p : Fin 512) (q : Fin 1024), y = ix2 p q := ⟨y 0, y 1, eq_ix2 y⟩
  show k0_pay4 (F := Ideal) (iblk0 V c 0 t) (iblk0 V c 1 t) (iblk0 V c 2 t) (ix2 p q)
      = lin rowV (V c main_arg0) (V c main_v1) (V c main_v2) (((cfg0.win 5).blk t).view.emb (ix2 p q))
  refine (Cert.KernelIdeal.Pay.k0_pay4_apply (iblk0 V c 0 t) (iblk0 V c 1 t) (iblk0 V c 2 t) p q).trans ?_
  refine (lin_at rowV (V c main_arg0) (V c main_v1) (V c main_v2) (iblk0 V c 0 t) (iblk0 V c 1 t) (iblk0 V c 2 t) (rowAt t p) p q
    (blk0_0 V c t p) (blk0_1 V c t) (blk0_2 V c t)).trans (congrArg (lin rowV (V c main_arg0) (V c main_v1) (V c main_v2)) (funext fun a => Fin.ext ?_))
  obtain ⟨-, -, -, -, -, -, -, -, -, e5, e6⟩ := idx0 t
  match a with
  | ⟨0, _⟩ => show t.val * 512 + p.val = win0_5.index t (0 : Fin 2) * 512 + 1 * p.val; omega
  | ⟨1, _⟩ => show q.val = win0_5.index t (1 : Fin 2) * 1024 + 1 * q.val; omega

/-- An index is in point `t`'s block of this output iff each coordinate is in the block's range. -/
theorem mem_blk0_3 (t : Fin cfg0.N) (i : S2048x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4_0).slice (win0_3.rect t)).set ↔ _
  rw [View.set_slice_whole, Rect.mem_set_unit]
  exact Iff.rfl

/-- Every row lies in the block of the point `row / 512`. -/
theorem cover0_3 (i : S2048x1024.Idx) : ∃ t : Fin cfg0.N, (cfg0.win 3).flush t = true ∧ i ∈ ((cfg0.win 3).blk t).view.set := by
  have hi0 : (i 0).val < 2048 := (i 0).isLt
  have hi1 : (i 1).val < 1024 := (i 1).isLt
  let t : Fin cfg0.N := ⟨(i 0).val / 512, by rw [show cfg0.N = 4 from N_0]; omega⟩
  refine ⟨t, flush0_3 t, ?_⟩
  rw [mem_blk0_3]
  have ht : t.val = (i 0).val / 512 := rfl
  have e := idx0 t
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE ARRAY after the call: the function of the three input arrays. -/
theorem final0_3 (c : Dev nD) :
    (dat0 (F := Ideal) V c).arrAt 3 cfg0.N = lin rowQ (V c main_arg0) (V c main_v1) (V c main_v2) :=
  (dat0 (F := Ideal) V c).arrAt_eq_of_cover 3 _ (fun t _ => flushed0_3_eq V c t) cover0_3

/-- An index is in point `t`'s block of this output iff each coordinate is in the block's range. -/
theorem mem_blk0_4 (t : Fin cfg0.N) (i : S2048x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_1).slice (win0_4.rect t)).set ↔ _
  rw [View.set_slice_whole, Rect.mem_set_unit]
  exact Iff.rfl

/-- Every row lies in the block of the point `row / 512`. -/
theorem cover0_4 (i : S2048x1024.Idx) : ∃ t : Fin cfg0.N, (cfg0.win 4).flush t = true ∧ i ∈ ((cfg0.win 4).blk t).view.set := by
  have hi0 : (i 0).val < 2048 := (i 0).isLt
  have hi1 : (i 1).val < 1024 := (i 1).isLt
  let t : Fin cfg0.N := ⟨(i 0).val / 512, by rw [show cfg0.N = 4 from N_0]; omega⟩
  refine ⟨t, flush0_4 t, ?_⟩
  rw [mem_blk0_4]
  have ht : t.val = (i 0).val / 512 := rfl
  have e := idx0 t
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- THE ARRAY after the call: the function of the three input arrays. -/
theorem final0_4 (c : Dev nD) :
    (dat0 (F := Ideal) V c).arrAt 4 cfg0.N = lin rowK (V c main_arg0) (V c main_v1) (V c main_v2) :=
  (dat0 (F := Ideal) V c).arrAt_eq_of_cover 4 _ (fun t _ => flushed0_4_eq V c t) cover0_4

/-- An index is in point `t`'s block of this output iff each coordinate is in the block's range. -/
theorem mem_blk0_5 (t : Fin cfg0.N) (i : S2048x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_2).slice (win0_5.rect t)).set ↔ _
  rw [View.set_slice_whole, Rect.mem_set_unit]
  exact Iff.rfl

/-- Every row lies in the block of the point `row / 512`. -/
theorem cover0_5 (i : S2048x1024.Idx) : ∃ t : Fin cfg0.N, (cfg0.win 5).flush t = true ∧ i ∈ ((cfg0.win 5).blk t).view.set := by
  have hi0 : (i 0).val < 2048 := (i 0).isLt
  have hi1 : (i 1).val < 1024 := (i 1).isLt
  let t : Fin cfg0.N := ⟨(i 0).val / 512, by rw [show cfg0.N = 4 from N_0]; omega⟩
  refine ⟨t, flush0_5 t, ?_⟩
  rw [mem_blk0_5]
  have ht : t.val = (i 0).val / 512 := rfl
  have e := idx0 t
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- THE ARRAY after the call: the function of the three input arrays. -/
theorem final0_5 (c : Dev nD) :
    (dat0 (F := Ideal) V c).arrAt 5 cfg0.N = lin rowV (V c main_arg0) (V c main_v1) (V c main_v2) :=
  (dat0 (F := Ideal) V c).arrAt_eq_of_cover 5 _ (fun t _ => flushed0_5_eq V c t) cover0_5

end Cert.KernelIdeal.Val

end
-- ==== Proof.PayHeads.lean ====
/-
  The sixteen attention heads of the attention kernel are one function.

  Each head's stored value is the same straight-line arithmetic of its three loads (the block of queries, the
  keys and the values of that head). Thirteen of the sixteen payloads are that function outright; the
  remaining six heads each straddle a cut of the kernel body, and are that function once the three pieces of
  the head are composed.
-/
import proofs.«127907_j34505767256262_2_alg».proof.Proof.Gen.KernelIdeal.Skeleton

noncomputable section

namespace Cert.KernelIdeal.Pay

open Cert.KernelIdeal Cert.KernelIdeal.Gen Idealize.ShloMosaic

variable {F : FTy → Type} [FloatOps F]

/-! ### Heads that lie whole inside one part of the body -/

theorem k1_pay1_eq : k1_pay1 (F := F) = k1_pay2 := rfl
theorem k1_pay6_eq : k1_pay6 (F := F) = k1_pay2 := rfl
theorem k1_pay10_eq : k1_pay10 (F := F) = k1_pay2 := rfl
theorem k1_pay11_eq : k1_pay11 (F := F) = k1_pay2 := rfl
theorem k1_pay15_eq : k1_pay15 (F := F) = k1_pay2 := rfl
theorem k1_pay19_eq : k1_pay19 (F := F) = k1_pay2 := rfl
theorem k1_pay20_eq : k1_pay20 (F := F) = k1_pay2 := rfl
theorem k1_pay24_eq : k1_pay24 (F := F) = k1_pay2 := rfl
theorem k1_pay28_eq : k1_pay28 (F := F) = k1_pay2 := rfl

/-! ### Heads cut after the exponentials: the values' cast and the exponentials are carried over the cut -/

theorem k1_pay5_eq (q : Vec F S512x64 .bf16) (k v : Vec F S2048x64 .bf16) :
    k1_pay5 (k1_pay3 v) (k1_pay4 q k) = k1_pay2 q k v := rfl
theorem k1_pay14_eq (q : Vec F S512x64 .bf16) (k v : Vec F S2048x64 .bf16) :
    k1_pay14 (k1_pay12 v) (k1_pay13 q k) = k1_pay2 q k v := rfl
theorem k1_pay23_eq (q : Vec F S512x64 .bf16) (k v : Vec F S2048x64 .bf16) :
    k1_pay23 (k1_pay21 v) (k1_pay22 q k) = k1_pay2 q k v := rfl

/-! ### Heads cut after the loads of queries and keys: their casts are carried over the cut -/

theorem k1_pay9_eq (q : Vec F S512x64 .bf16) (k v : Vec F S2048x64 .bf16) :
    k1_pay9 (k1_pay7 q) (k1_pay8 k) v = k1_pay2 q k v := rfl
theorem k1_pay18_eq (q : Vec F S512x64 .bf16) (k v : Vec F S2048x64 .bf16) :
    k1_pay18 (k1_pay16 q) (k1_pay17 k) v = k1_pay2 q k v := rfl
theorem k1_pay27_eq (q : Vec F S512x64 .bf16) (k v : Vec F S2048x64 .bf16) :
    k1_pay27 (k1_pay25 q) (k1_pay26 k) v = k1_pay2 q k v := rfl

end Cert.KernelIdeal.Pay

end
-- ==== Proof.LibPlainDot.lean ====
/-
  The matrix product of an [M, K] array and a [K, N] array, read at one entry.

  Whatever record carries the dimension numbers of a plain product (contract the left operand's columns with the right
  operand's rows, no batch axis), entry (p, q) of a kernel's product into a zero accumulator, and of a host program's
  product, is the sum over k of left (p, k) times right (k, q): it depends on the left operand through row p alone.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The dimension numbers of a plain M×K by K×N product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The contraction's sum, re-indexed by the one contracted coordinate. -/
theorem contr_sum (d : DotDims ⟨2, ![M, K]⟩ ⟨2, ![K, N]⟩ ⟨2, ![M, N]⟩) (hd : IsPlain d)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = d
  have hlc : d.lhsContracting = [1] := by rw [← hD]
  have hrc : d.rhsContracting = [0] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hD
      unfold DotDims.rhsIdx
      dsimp only
      repeat' split
      all_goals first | rfl | (exfalso; simp_all))
  rw [el, er]

/-- A kernel's product into a zero accumulator at entry (p, q). -/
theorem matmul_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec _ lhs rhs (ix2 p q) = _
  rw [Ideal.dotGeneral_apply]
  exact contr_sum d hd lhs rhs p q

end Cert.PlainDot

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibLayout.lean ====
/-
  Small layout facts read at an index, for two-dimensional arrays with a unit axis: a vector turned into a
  column, a column broadcast across columns. (The row forms and the plain transpose are in the library.)
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to the column shape `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-element `[1]` array cast to `[1, 1]` reads the operand's one element. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show (0 : ℕ) = u.val * 1 + v.val
    rw [hu, hv])

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibLayout
-- ==== Proof.PayHead.lean ====
/-
  One attention head's stored value, read at one entry.

  A head takes a block of 512 queries, 2048 keys and 2048 values, each of width 64. Row p of its output is the
  softmax of the scaled scores of query p against every key, applied to the values: with
  score t = (Σ_d' q(p,d') k(t,d')) / 8, the row maximum m = max_t score t (folded from −∞) and
  e t = exp (score t − m), entry (p, d) is Σ_t (e t / Σ_t' e t') · v(t, d). At the extended reals the format
  changes are the identity, so this is the whole of the arithmetic.
-/
import proofs.«127907_j34505767256262_2_alg».proof.Proof.Gen.KernelIdeal.Skeleton
import proofs.«127907_j34505767256262_2_alg».proof.Proof.PayHeads
import proofs.«127907_j34505767256262_2_alg».proof.Proof.LibDotNT
import proofs.«127907_j34505767256262_2_alg».proof.Proof.LibPlainDot
import proofs.«127907_j34505767256262_2_alg».proof.Proof.LibAxisFold
import proofs.«127907_j34505767256262_2_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ### The two constants -/

/-- The scale's word denotes one eighth. -/
theorem ofBits_eighth : Ideal.ofBits .f32 0x3E000000#32 = ((1 / 8 : ℝ) : EReal) := by
  simp [Ideal.ofBits, Ideal.ieee, -EReal.coe_mul]; norm_num

/-- The maximum's starting word denotes −∞. -/
theorem ofBits_neg_inf : Ideal.ofBits .f32 0xFF800000#32 = ⊥ := by
  simp [Ideal.ofBits, Ideal.ieee]

/-! ### The head's arithmetic, by coordinates -/

/-- The scaled score of query `p` against key `t`. -/
def headScore (qh : Vec Ideal S512x64 .bf16) (kh : Vec Ideal S2048x64 .bf16) (p : Fin 512) (t : Fin 2048) : EReal :=
  (∑ d' : Fin 64, qh (ix2 p d') * kh (ix2 t d')) * ((1 / 8 : ℝ) : EReal)

/-- The largest score of query `p`, folded from −∞. -/
def headMax (qh : Vec Ideal S512x64 .bf16) (kh : Vec Ideal S2048x64 .bf16) (p : Fin 512) : EReal :=
  (Finset.univ : Finset (Fin 2048)).fold max ⊥ (headScore qh kh p)

/-- The exponential of a score less the row's largest. -/
def headExp (qh : Vec Ideal S512x64 .bf16) (kh : Vec Ideal S2048x64 .bf16) (p : Fin 512) (t : Fin 2048) : EReal :=
  Ideal.exp (headScore qh kh p t - headMax qh kh p)

/-! ### The stages -/

/-- The scaled product of queries and keys at (p, t), whatever proofs the two casts carry. -/
theorem score_apply (qh : Vec Ideal S512x64 .bf16) (kh : Vec Ideal S2048x64 .bf16)
    (h1 : S512x64.ShapeCasts S512x64) (h2 : S2048x64.ShapeCasts S2048x64) (p : Fin 512) (t : Fin 2048) :
    mulf (F := Ideal) (matmul dot_S512x64_S2048x64_S512x2048_1_1_0_0_n_n none (shapeCast S512x64 qh h1 : FVec Ideal S512x64 .bf16)
        (shapeCast S2048x64 kh h2 : FVec Ideal S2048x64 .bf16) (constant S512x2048 .f32 0x00000000#32)) (broadcast S512x2048 (Scalar.ofBits .f32 0x3E000000#32)) (ix2 p t)
      = headScore qh kh p t := by
  rw [mulf_apply, shapeCast_self, shapeCast_self, Cert.DotNT.matmul_apply _ ⟨rfl, rfl, rfl, rfl, rfl, rfl⟩]
  show _ * Ideal.ofBits .f32 0x3E000000#32 = _
  rw [ofBits_eighth]
  rfl

/-- The exponentials carried over a cut of the body are the head's exponentials. -/
theorem k1_pay4_apply (qh : Vec Ideal S512x64 .bf16) (kh : Vec Ideal S2048x64 .bf16) (p : Fin 512) (t : Fin 2048) :
    k1_pay4 (F := Ideal) qh kh (ix2 p t) = headExp qh kh p t := by
  unfold k1_pay4
  show Ideal.exp (subf (F := Ideal) _ _ (ix2 p t)) = _
  rw [subf_apply]
  refine congrArg Ideal.exp (congrArg₂ (· - ·) (score_apply qh kh _ _ p t) ?_)
  refine (Cert.LibLayout.broadcastTo_a1_ab_apply _ _ p t).trans
    ((Cert.LibLayout.shapeCast_a_a1_apply _ _ p 0).trans ((Cert.AxisFold.row_max _ _ _ _ _ p).trans ?_))
  rw [ofBits_neg_inf]
  simp only [score_apply]
  rfl

/-- The second half of a head: the exponentials normalised along each row, applied to the values. -/
theorem k1_pay5_apply (vv : FVec Ideal S2048x64 .bf16) (E : FVec Ideal S512x2048 .f32) (p : Fin 512) (d : Fin 64) :
    k1_pay5 (F := Ideal) vv E (ix2 p d)
      = ∑ t : Fin 2048, Ideal.div (E (ix2 p t)) (∑ t' : Fin 2048, E (ix2 p t')) * vv (ix2 t d) := by
  unfold k1_pay5
  rw [truncf_apply, Cert.PlainDot.matmul_apply _ ⟨rfl, rfl, rfl, rfl, rfl, rfl⟩]
  refine Finset.sum_congr rfl fun t _ => ?_
  rw [truncf_apply, divf_apply, Cert.LibLayout.broadcastTo_a1_ab_apply, Cert.LibLayout.shapeCast_a_a1_apply]
  exact congrArg (fun s => Ideal.div (E (ix2 p t)) s * vv (ix2 t d)) (Cert.AxisFold.row_sum E _ _ _ p)

/-- THE HEAD at entry (p, d): the softmax of query p's scaled scores applied to column d of the values. -/
theorem k1_pay2_apply (qh : Vec Ideal S512x64 .bf16) (kh vh : Vec Ideal S2048x64 .bf16) (p : Fin 512) (d : Fin 64) :
    k1_pay2 (F := Ideal) qh kh vh (ix2 p d)
      = ∑ t : Fin 2048, Ideal.div (headExp qh kh p t) (∑ t' : Fin 2048, headExp qh kh p t') * vh (ix2 t d) := by
  rw [← k1_pay5_eq, k1_pay5_apply]
  simp only [k1_pay4_apply]
  unfold k1_pay3
  rw [shapeCast_self]

end Cert.KernelIdeal.Pay

end
-- ==== Proof.Spec.lean ====
/-
  Multi-head attention over 2048 rows, width 1024, sixteen heads of width 64, as plain functions of coordinates
  on the extended reals. Three linear layers give queries, keys and values; head `h` owns columns
  64h … 64h+63; its scores are the dot products of a query row with every key row, divided by 8; each score row
  is turned into weights by subtracting its maximum, exponentiating and dividing by the row's total; the head's
  output row is the weighted sum of the value rows; a fourth linear layer is applied to the heads' outputs laid
  side by side.
-/
import Idealize.ShloMosaic.PureOps.Ideal

noncomputable section

namespace Cert.Spec

open Idealize.ShloMosaic

/-- Column `64h + d`: lane `d` of head `h`. -/
def col (h : Fin 16) (d : Fin 64) : Fin 1024 := ⟨h.val * 64 + d.val, by omega⟩

/-- The head a column belongs to, and its lane inside that head. -/
def headOf (j : Fin 1024) : Fin 16 := ⟨j.val / 64, by omega⟩
def laneOf (j : Fin 1024) : Fin 64 := ⟨j.val % 64, by omega⟩

theorem col_headOf_laneOf (j : Fin 1024) : col (headOf j) (laneOf j) = j :=
  Fin.ext (by simp only [col, headOf, laneOf]; omega)

/-- A linear layer: row `s` of `x` against row `j` of `W`, plus the bias. -/
def proj {n : ℕ} (x : Fin n → Fin 1024 → EReal) (W : Fin 1024 → Fin 1024 → EReal) (b : Fin 1024 → EReal)
    (s : Fin n) (j : Fin 1024) : EReal :=
  (∑ k : Fin 1024, x s k * W j k) + b j

/-- The scaled score of head `h`: query row `s` against key row `t`, times 1/8. -/
def score (q k : Fin 2048 → Fin 1024 → EReal) (h : Fin 16) (s t : Fin 2048) : EReal :=
  (∑ d : Fin 64, q s (col h d) * k t (col h d)) * ((1 / 8 : ℝ) : EReal)

/-- The largest score of a row (from −∞). -/
def rowMax (q k : Fin 2048 → Fin 1024 → EReal) (h : Fin 16) (s : Fin 2048) : EReal :=
  (Finset.univ : Finset (Fin 2048)).fold max ⊥ fun t => score q k h s t

/-- The exponential of a score less its row's maximum. -/
def expo (q k : Fin 2048 → Fin 1024 → EReal) (h : Fin 16) (s t : Fin 2048) : EReal :=
  Ideal.exp (score q k h s t - rowMax q k h s)

/-- The total of a row's exponentials. -/
def denom (q k : Fin 2048 → Fin 1024 → EReal) (h : Fin 16) (s : Fin 2048) : EReal :=
  ∑ t : Fin 2048, expo q k h s t

/-- The attention weight of key row `t` for query row `s`. -/
def weight (q k : Fin 2048 → Fin 1024 → EReal) (h : Fin 16) (s t : Fin 2048) : EReal :=
  Ideal.div (expo q k h s t) (denom q k h s)

/-- The heads' outputs side by side: at column `j` the weighted sum of column `j` of the values, with the
    weights of the head that owns `j`. -/
def attn (q k v : Fin 2048 → Fin 1024 → EReal) (s : Fin 2048) (j : Fin 1024) : EReal :=
  ∑ t : Fin 2048, weight q k (headOf j) s t * v t j

/-- The whole layer. -/
def out (x : Fin 2048 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (Wo : Fin 1024 → Fin 1024 → EReal) (bo : Fin 1024 → EReal) : Fin 2048 → Fin 1024 → EReal :=
  proj (attn (proj x Wq bq) (proj x Wk bk) (proj x Wv bv)) Wo bo

end Cert.Spec

end
-- ==== Proof.KIAttnBlock.lean ====
/-
  The attention kernel's output block, read at one entry.

  After the body the output block holds sixteen column strips, one per head; head h owns columns 64h … 64h+63
  and its strip is the head function of the same strips of the block of queries, of the keys and of the values.
  Read by coordinates, entry (p, j) of the block is the softmax of query row p's scaled scores against every key
  row, taken over the 64 columns of the head that owns j, applied to column j of the values. Every strip's stored
  value agrees with that one function of the block index, so the block is that function wherever a strip covers,
  which is everywhere.
-/
import proofs.«127907_j34505767256262_2_alg».proof.Proof.KIFrame1
import proofs.«127907_j34505767256262_2_alg».proof.Proof.PayHead
import proofs.«127907_j34505767256262_2_alg».proof.Proof.PayHeads
import proofs.«127907_j34505767256262_2_alg».proof.Proof.Spec
import Idealize.ShloMosaic.Lib.Pipeline.Value
import Idealize.ShloMosaic.Lib.ValueIdx

noncomputable section

namespace Cert.KernelIdeal.Pay

open Cert.KernelIdeal Cert.KernelIdeal.Gen Idealize.ShloMosaic Idealize.ShloMosaic.ValueIdx

/-! ### The block's arithmetic, by coordinates -/

/-- The scaled score of head `h`: query row `p` of the block against key row `t`. -/
def bScore (x0 : Vec Ideal S512x1024 .bf16) (x1 : Vec Ideal S2048x1024 .bf16) (h : Fin 16) (p : Fin 512) (t : Fin 2048) : EReal :=
  (∑ d : Fin 64, x0 (ix2 p (Cert.Spec.col h d)) * x1 (ix2 t (Cert.Spec.col h d))) * ((1 / 8 : ℝ) : EReal)

/-- The largest score of a row, folded from −∞. -/
def bMax (x0 : Vec Ideal S512x1024 .bf16) (x1 : Vec Ideal S2048x1024 .bf16) (h : Fin 16) (p : Fin 512) : EReal :=
  (Finset.univ : Finset (Fin 2048)).fold max ⊥ (bScore x0 x1 h p)

/-- The exponential of a score less its row's largest. -/
def bExp (x0 : Vec Ideal S512x1024 .bf16) (x1 : Vec Ideal S2048x1024 .bf16) (h : Fin 16) (p : Fin 512) (t : Fin 2048) : EReal :=
  Ideal.exp (bScore x0 x1 h p t - bMax x0 x1 h p)

/-- The heads' outputs side by side: at column `j` the weighted sum of column `j` of the values, with the weights
    of the head that owns `j`. -/
def bAttn (x0 : Vec Ideal S512x1024 .bf16) (x1 x2 : Vec Ideal S2048x1024 .bf16) (p : Fin 512) (j : Fin 1024) : EReal :=
  ∑ t : Fin 2048, Ideal.div (bExp x0 x1 (Cert.Spec.headOf j) p t) (∑ t' : Fin 2048, bExp x0 x1 (Cert.Spec.headOf j) p t')
    * x2 (ix2 t j)

/-! ### A head's strip -/

/-- Lane `d` of head `h` belongs to head `h`. -/
theorem headOf_col (h : Fin 16) (d : Fin 64) : Cert.Spec.headOf (Cert.Spec.col h d) = h :=
  Fin.ext (by
    have := d.isLt
    simp only [Cert.Spec.headOf, Cert.Spec.col]
    omega)

/-- An array of width 1024 read through the strip of 64 columns from column `c = 64h` is, at (p, d), the array at
    (p, column d of head h). -/
theorem ld_strip_apply {n : ℕ} (x : Vec Ideal ⟨2, ![n, 1024]⟩ .bf16) (h : Fin 16) (c : ℕ) (hc : c = h.val * 64)
    (inb : ∀ a, (![0, c] : Fin 2 → ℕ) a + (![n, 64] : Fin 2 → ℕ) a ≤ (⟨2, ![n, 1024]⟩ : Shape).size a)
    (p : Fin n) (d : Fin 64) :
    View.ld x (Rect.unit (s := ⟨2, ![n, 1024]⟩) ![0, c] ![n, 64] inb) (ix2 p d) = x (ix2 p (Cert.Spec.col h d)) := by
  show x _ = x _
  refine congrArg x (funext fun a => Fin.ext ?_)
  match a with
  | ⟨0, _⟩ =>
    show 0 + 1 * p.val = p.val
    omega
  | ⟨1, _⟩ =>
    show c + 1 * d.val = h.val * 64 + d.val
    omega

section Strip

variable (x0 : Vec Ideal S512x1024 .bf16) (x1 x2 : Vec Ideal S2048x1024 .bf16) (h : Fin 16) (c : ℕ) (hc : c = h.val * 64)
  (inbQ : ∀ a, (![0, c] : Fin 2 → ℕ) a + S512x64.size a ≤ S512x1024.size a)
  (inbK : ∀ a, (![0, c] : Fin 2 → ℕ) a + S2048x64.size a ≤ S2048x1024.size a)

include hc

/-- The head's scores on the loaded strips are the block's scores of head `h`. -/
theorem headScore_strip (p : Fin 512) (t : Fin 2048) :
    headScore (View.ld x0 (Rect.unit (s := S512x1024) ![0, c] S512x64.size inbQ))
        (View.ld x1 (Rect.unit (s := S2048x1024) ![0, c] S2048x64.size inbK)) p t = bScore x0 x1 h p t :=
  congrArg (· * ((1 / 8 : ℝ) : EReal)) (Finset.sum_congr rfl fun d _ =>
    congrArg₂ (· * ·) (ld_strip_apply x0 h c hc inbQ p d) (ld_strip_apply x1 h c hc inbK t d))

/-- Their row maximum is the block's. -/
theorem headMax_strip (p : Fin 512) :
    headMax (View.ld x0 (Rect.unit (s := S512x1024) ![0, c] S512x64.size inbQ))
        (View.ld x1 (Rect.unit (s := S2048x1024) ![0, c] S2048x64.size inbK)) p = bMax x0 x1 h p :=
  congrArg ((Finset.univ : Finset (Fin 2048)).fold max ⊥) (funext fun t => headScore_strip x0 x1 h c hc inbQ inbK p t)

/-- Their exponentials are the block's. -/
theorem headExp_strip (p : Fin 512) (t : Fin 2048) :
    headExp (View.ld x0 (Rect.unit (s := S512x1024) ![0, c] S512x64.size inbQ))
        (View.ld x1 (Rect.unit (s := S2048x1024) ![0, c] S2048x64.size inbK)) p t = bExp x0 x1 h p t :=
  congrArg Ideal.exp (congrArg₂ (· - ·) (headScore_strip x0 x1 h c hc inbQ inbK p t) (headMax_strip x0 x1 h c hc inbQ inbK p))

/-- The head function of the three loaded strips at (p, d) is the block's value at (p, column d of head h). -/
theorem head_strip (p : Fin 512) (d : Fin 64) :
    k1_pay2 (F := Ideal) (View.ld x0 (Rect.unit (s := S512x1024) ![0, c] S512x64.size inbQ))
        (View.ld x1 (Rect.unit (s := S2048x1024) ![0, c] S2048x64.size inbK))
        (View.ld x2 (Rect.unit (s := S2048x1024) ![0, c] S2048x64.size inbK)) (ix2 p d)
      = bAttn x0 x1 x2 p (Cert.Spec.col h d) := by
  rw [k1_pay2_apply]
  unfold bAttn
  rw [headOf_col]
  simp only [headExp_strip x0 x1 h c hc inbQ inbK]
  exact Finset.sum_congr rfl fun t _ => congrArg (_ * ·) (ld_strip_apply x2 h c hc inbK t d)

/-- So the strip's stored value agrees, at every one of its indices, with the block's value at the index the strip
    places it at. -/
theorem piece_strip (x : (Rect.unit (s := S512x1024) ![0, c] S512x64.size inbQ).shape.Idx) :
    k1_pay2 (F := Ideal) (View.ld x0 (Rect.unit (s := S512x1024) ![0, c] S512x64.size inbQ))
        (View.ld x1 (Rect.unit (s := S2048x1024) ![0, c] S2048x64.size inbK))
        (View.ld x2 (Rect.unit (s := S2048x1024) ![0, c] S2048x64.size inbK)) x
      = (fun i : S512x1024.Idx => bAttn x0 x1 x2 (i 0) (i 1))
          ((Rect.unit (s := S512x1024) ![0, c] S512x64.size inbQ).emb x) := by
  obtain ⟨p, d, rfl⟩ : ∃ (p : Fin 512) (d : Fin 64), x = ix2 p d := ⟨x 0, x 1, eq_ix2 x⟩
  refine (head_strip x0 x1 x2 h c hc inbQ inbK p d).trans ?_
  show bAttn x0 x1 x2 p (Cert.Spec.col h d) = bAttn x0 x1 x2 _ _
  congr 1
  · exact Fin.ext (by show p.val = 0 + 1 * p.val; omega)
  · exact Fin.ext (by show h.val * 64 + d.val = c + 1 * d.val; omega)

end Strip

/-! ### The block -/

/-- THE OUTPUT BLOCK at entry (p, j). -/
theorem out1_3_apply (x0 : Vec Ideal S512x1024 .bf16) (x1 x2 : Vec Ideal S2048x1024 .bf16) (p : Fin 512) (j : Fin 1024) :
    Cert.KernelIdeal.Fr.out1_3 (F := Ideal) x0 x1 x2 (ix2 p j) = bAttn x0 x1 x2 p j := by
  unfold Cert.KernelIdeal.Fr.out1_3
  refine View.canon_apply_of_pieces (Val := Elt Ideal) (e := .bf16) (fun i : S512x1024.Idx => bAttn x0 x1 x2 (i 0) (i 1)) _ ?_ (ix2 p j)
    (Cert.KernelIdeal.Fr.cover1 _ _ _ _ _ _ _ _ _ _ _ _ _ _ _ _ (ix2 p j))
  intro pc hpc x
  simp only [List.mem_cons, List.mem_singleton, List.not_mem_nil, or_false] at hpc
  rcases hpc with rfl | rfl | rfl | rfl | rfl | rfl | rfl | rfl | rfl | rfl | rfl | rfl | rfl | rfl | rfl | rfl
  · rw [k1_pay1_eq]; exact piece_strip x0 x1 x2 15 960 rfl _ _ x
  · rw [k1_pay28_eq]; exact piece_strip x0 x1 x2 14 896 rfl _ _ x
  · rw [k1_pay27_eq]; exact piece_strip x0 x1 x2 13 832 rfl _ _ x
  · rw [k1_pay24_eq]; exact piece_strip x0 x1 x2 12 768 rfl _ _ x
  · rw [k1_pay23_eq]; exact piece_strip x0 x1 x2 11 704 rfl _ _ x
  · rw [k1_pay20_eq]; exact piece_strip x0 x1 x2 10 640 rfl _ _ x
  · rw [k1_pay19_eq]; exact piece_strip x0 x1 x2 9 576 rfl _ _ x
  · rw [k1_pay18_eq]; exact piece_strip x0 x1 x2 8 512 rfl _ _ x
  · rw [k1_pay15_eq]; exact piece_strip x0 x1 x2 7 448 rfl _ _ x
  · rw [k1_pay14_eq]; exact piece_strip x0 x1 x2 6 384 rfl _ _ x
  · rw [k1_pay11_eq]; exact piece_strip x0 x1 x2 5 320 rfl _ _ x
  · rw [k1_pay10_eq]; exact piece_strip x0 x1 x2 4 256 rfl _ _ x
  · rw [k1_pay9_eq]; exact piece_strip x0 x1 x2 3 192 rfl _ _ x
  · rw [k1_pay6_eq]; exact piece_strip x0 x1 x2 2 128 rfl _ _ x
  · rw [k1_pay5_eq]; exact piece_strip x0 x1 x2 1 64 rfl _ _ x
  · exact piece_strip x0 x1 x2 0 0 rfl _ _ x

end Cert.KernelIdeal.Pay

end
-- ==== Proof.KIVal1.lean ====
/-
  What the attention kernel leaves in its output array, as a whole-array function of the query, key and value arrays
  it found: at row `s`, column `j` the weighted sum of column `j` of the values, the weights being those of row `s` of the
  head that owns column `j`. A grid point handles 512 query rows against all 2048 key and value rows and writes back a
  block of 512 rows; block `t` of the function is what point `t` wrote, and the four blocks cover the 2048 rows.
-/
import proofs.«127907_j34505767256262_2_alg».proof.Proof.KIFrame1
import proofs.«127907_j34505767256262_2_alg».proof.Proof.KIAttnBlock
import proofs.«127907_j34505767256262_2_alg».proof.Proof.Spec
import Idealize.ShloMosaic.Lib.Pipeline.Value
import Idealize.ShloMosaic.Lib.ValueIdx

set_option maxRecDepth 16384

noncomputable section

namespace Cert.KernelIdeal.Val1

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

/-- A 2048 × 1024 array as a function of its two coordinates. -/
def c2 (f : S2048x1024.Idx → EReal) (s : Fin 2048) (j : Fin 1024) : EReal := f (ix2 s j)

/-- The attention output array from the query, key and value arrays. -/
def attnArr (Q K Vv : S2048x1024.Idx → EReal) : S2048x1024.Idx → EReal :=
  fun i => Cert.Spec.attn (c2 Q) (c2 K) (c2 Vv) (i 0) (i 1)

/-- The printed index maps over the grid: the query block and the output block move with the point, the keys and the
    values stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt4 (t : Fin cfg1.N) : t.val < 4 := lt_of_lt_of_eq t.isLt (show cfg1.N = 4 from N_1)

/-- Row `p` of block `t` is row `512 t + p` of the array. -/
def rowAt (t : Fin cfg1.N) (p : Fin 512) : Fin 2048 := ⟨t.val * 512 + p.val, by have := lt4 t; omega⟩

variable (V : (c : Dev nD) → (b : Ref sig .tc) → Buf (Elt Ideal) ((c : Thread nD τ).loc b))

theorem blk1_0 (c : Dev nD) (t : Fin cfg1.N) (p : Fin 512) (k : Fin 1024) :
    iblk1 V c 0 t (ix2 p k) = V c main_v4_0 (ix2 (rowAt t p) k) := by
  show V c main_v4_0 (((cfg1.win 0).blk t).view.emb (ix2 p k)) = _
  refine congrArg (V c main_v4_0) (funext fun a => Fin.ext ?_)
  obtain ⟨e0, e1, -⟩ := idx1 t
  match a with
  | ⟨0, _⟩ => show win1_0.index t (0 : Fin 2) * 512 + 1 * p.val = t.val * 512 + p.val; omega
  | ⟨1, _⟩ => show win1_0.index t (1 : Fin 2) * 1024 + 1 * k.val = k.val; omega

theorem blk1_1 (c : Dev nD) (t : Fin cfg1.N) (r : Fin 2048) (k : Fin 1024) :
    iblk1 V c 1 t (ix2 r k) = V c main_v4_1 (ix2 r k) := by
  show V c main_v4_1 (((cfg1.win 1).blk t).view.emb (ix2 r k)) = _
  refine congrArg (V c main_v4_1) (funext fun a => Fin.ext ?_)
  obtain ⟨-, -, e2, e3, -⟩ := idx1 t
  match a with
  | ⟨0, _⟩ => show win1_1.index t (0 : Fin 2) * 2048 + 1 * r.val = r.val; omega
  | ⟨1, _⟩ => show win1_1.index t (1 : Fin 2) * 1024 + 1 * k.val = k.val; omega

theorem blk1_2 (c : Dev nD) (t : Fin cfg1.N) (r : Fin 2048) (k : Fin 1024) :
    iblk1 V c 2 t (ix2 r k) = V c main_v4_2 (ix2 r k) := by
  show V c main_v4_2 (((cfg1.win 2).blk t).view.emb (ix2 r k)) = _
  refine congrArg (V c main_v4_2) (funext fun a => Fin.ext ?_)
  obtain ⟨-, -, -, -, e4, e5, -⟩ := idx1 t
  match a with
  | ⟨0, _⟩ => show win1_2.index t (0 : Fin 2) * 2048 + 1 * r.val = r.val; omega
  | ⟨1, _⟩ => show win1_2.index t (1 : Fin 2) * 1024 + 1 * k.val = k.val; omega

/-- The block formula at row `p` is the whole-array formula at the row `P` the block's row is, when the three blocks are
    restrictions of the three arrays. -/
theorem bAttn_eq (Q K Vv : S2048x1024.Idx → EReal)
    (x0 : Vec Ideal S512x1024 .bf16) (x1 x2 : Vec Ideal S2048x1024 .bf16) (P : Fin 2048) (p : Fin 512)
    (h0 : ∀ j, x0 (ix2 p j) = Q (ix2 P j)) (h1 : ∀ r j, x1 (ix2 r j) = K (ix2 r j)) (h2 : ∀ r j, x2 (ix2 r j) = Vv (ix2 r j))
    (j : Fin 1024) :
    Cert.KernelIdeal.Pay.bAttn x0 x1 x2 p j = Cert.Spec.attn (c2 Q) (c2 K) (c2 Vv) P j := by
  unfold Cert.KernelIdeal.Pay.bAttn Cert.Spec.attn Cert.Spec.weight Cert.Spec.denom Cert.Spec.expo Cert.Spec.rowMax Cert.Spec.score
    Cert.KernelIdeal.Pay.bExp Cert.KernelIdeal.Pay.bMax Cert.KernelIdeal.Pay.bScore c2
  simp only [h0, h1, h2]

/-- What point `t` writes back is block `t` of the function. -/
theorem flushed1_3_eq (c : Dev nD) (t : Fin cfg1.N) :
    (dat1 (F := Ideal) V c).flushed 3 t
      = ((cfg1.win 3).blk t).view.read (Elt Ideal) (attnArr (V c main_v4_0) (V c main_v4_1) (V c main_v4_2)) := by
  show (cfg1.win 3).cut (grid1.coords t) ((dat1 V c).after 3 t) = _
  rw [after1_3]
  funext y
  obtain ⟨p, q, rfl⟩ : ∃ (p : Fin 512) (q : Fin 1024), y = ix2 p q := ⟨y 0, y 1, eq_ix2 y⟩
  show out1_3 (F := Ideal) (iblk1 V c 0 t) (iblk1 V c 1 t) (iblk1 V c 2 t) (ix2 p q)
      = attnArr (V c main_v4_0) (V c main_v4_1) (V c main_v4_2) (((cfg1.win 3).blk t).view.emb (ix2 p q))
  refine (Cert.KernelIdeal.Pay.out1_3_apply (iblk1 V c 0 t) (iblk1 V c 1 t) (iblk1 V c 2 t) p q).trans ?_
  refine (bAttn_eq (V c main_v4_0) (V c main_v4_1) (V c main_v4_2) (iblk1 V c 0 t) (iblk1 V c 1 t) (iblk1 V c 2 t) (rowAt t p) p
    (blk1_0 V c t p) (blk1_1 V c t) (blk1_2 V c t) q).trans ?_
  show attnArr (V c main_v4_0) (V c main_v4_1) (V c main_v4_2) (ix2 (rowAt t p) q) = _
  refine congrArg (attnArr (V c main_v4_0) (V c main_v4_1) (V c main_v4_2)) (funext fun a => Fin.ext ?_)
  obtain ⟨-, -, -, -, -, -, e6, e7⟩ := idx1 t
  match a with
  | ⟨0, _⟩ => show t.val * 512 + p.val = win1_3.index t (0 : Fin 2) * 512 + 1 * p.val; omega
  | ⟨1, _⟩ => show q.val = win1_3.index t (1 : Fin 2) * 1024 + 1 * q.val; omega

theorem mem_blk1_3 (t : Fin cfg1.N) (i : S2048x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v5).slice (win1_3.rect t)).set ↔ _
  rw [View.set_slice_whole, Rect.mem_set_unit]
  exact Iff.rfl

/-- Every row lies in the block of the point `row / 512`. -/
theorem cover1_3 (i : S2048x1024.Idx) : ∃ t : Fin cfg1.N, (cfg1.win 3).flush t = true ∧ i ∈ ((cfg1.win 3).blk t).view.set := by
  have hi0 : (i 0).val < 2048 := (i 0).isLt
  have hi1 : (i 1).val < 1024 := (i 1).isLt
  let t : Fin cfg1.N := ⟨(i 0).val / 512, by rw [show cfg1.N = 4 from N_1]; omega⟩
  refine ⟨t, flush1_3 t, ?_⟩
  rw [mem_blk1_3]
  have ht : t.val = (i 0).val / 512 := rfl
  have e := idx1 t
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- THE ARRAY after the call: the attention function of the three input arrays. -/
theorem final1_3 (c : Dev nD) :
    (dat1 (F := Ideal) V c).arrAt 3 cfg1.N = attnArr (V c main_v4_0) (V c main_v4_1) (V c main_v4_2) :=
  (dat1 (F := Ideal) V c).arrAt_eq_of_cover 3 _ (fun t _ => flushed1_3_eq V c t) cover1_3

end Cert.KernelIdeal.Val1

end
-- ==== Proof.KIVal2.lean ====
/-
  What the output projection leaves in its output array, as a whole-array function of what it found in its three
  input arrays: rows · weightᵀ + bias. A grid point writes back a block of 512 rows; block `t` of the function is what
  point `t` wrote, and the four blocks cover the 2048 rows.
-/
import proofs.«127907_j34505767256262_2_alg».proof.Proof.KIFrame2
import proofs.«127907_j34505767256262_2_alg».proof.Proof.PayProj
import Idealize.ShloMosaic.Lib.Pipeline.Value
import Idealize.ShloMosaic.Lib.ValueIdx

set_option maxRecDepth 16384

noncomputable section

namespace Cert.KernelIdeal.Val2

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- Rows · weightᵀ + bias. -/
def lin2 (A : S2048x1024.Idx → EReal) (W : S1024x1024.Idx → EReal) (b : S1024.Idx → EReal) : S2048x1024.Idx → EReal :=
  fun i => (∑ k : Fin 1024, A (ix2 (i 0) k) * W (ix2 (i 1) k)) + b (ix1 (i 1))

/-- The printed index maps over the grid: the rows block and the output block move with the point, the weight and the
    bias stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

theorem lt4 (t : Fin cfg2.N) : t.val < 4 := lt_of_lt_of_eq t.isLt (show cfg2.N = 4 from N_2)

/-- Row `p` of block `t` is row `512 t + p` of the array. -/
def rowAt (t : Fin cfg2.N) (p : Fin 512) : Fin 2048 := ⟨t.val * 512 + p.val, by have := lt4 t; omega⟩

variable (V : (c : Dev nD) → (b : Ref sig .tc) → Buf (Elt Ideal) ((c : Thread nD τ).loc b))

theorem blk2_0 (c : Dev nD) (t : Fin cfg2.N) (p : Fin 512) (k : Fin 1024) :
    iblk2 V c 0 t (ix2 p k) = V c main_v5 (ix2 (rowAt t p) k) := by
  show V c main_v5 (((cfg2.win 0).blk t).view.emb (ix2 p k)) = _
  refine congrArg (V c main_v5) (funext fun a => Fin.ext ?_)
  obtain ⟨e0, e1, -⟩ := idx2 t
  match a with
  | ⟨0, _⟩ => show win2_0.index t (0 : Fin 2) * 512 + 1 * p.val = t.val * 512 + p.val; omega
  | ⟨1, _⟩ => show win2_0.index t (1 : Fin 2) * 1024 + 1 * k.val = k.val; omega

theorem blk2_1 (c : Dev nD) (t : Fin cfg2.N) (r : Fin 1024) (k : Fin 1024) :
    iblk2 V c 1 t (ix2 r k) = V c main_v3 (ix2 r k) := by
  show V c main_v3 (((cfg2.win 1).blk t).view.emb (ix2 r k)) = _
  refine congrArg (V c main_v3) (funext fun a => Fin.ext ?_)
  obtain ⟨-, -, e2, e3, -⟩ := idx2 t
  match a with
  | ⟨0, _⟩ => show win2_1.index t (0 : Fin 2) * 1024 + 1 * r.val = r.val; omega
  | ⟨1, _⟩ => show win2_1.index t (1 : Fin 2) * 1024 + 1 * k.val = k.val; omega

theorem blk2_2 (c : Dev nD) (t : Fin cfg2.N) (r : Fin 1024) :
    iblk2 V c 2 t (ix1 r) = V c main_arg8 (ix1 r) := by
  show V c main_arg8 (((cfg2.win 2).blk t).view.emb (ix1 r)) = _
  refine congrArg (V c main_arg8) (funext fun a => Fin.ext ?_)
  obtain ⟨-, -, -, -, e4, -⟩ := idx2 t
  match a with
  | ⟨0, _⟩ => show win2_2.index t (0 : Fin 1) * 1024 + 1 * r.val = r.val; omega

/-- The function at row `P`, column `q`, from blocks that are restrictions of the three arrays. -/
theorem lin2_at (A : S2048x1024.Idx → EReal) (W : S1024x1024.Idx → EReal) (b : S1024.Idx → EReal)
    (x0 : Vec Ideal S512x1024 .bf16) (w : Vec Ideal S1024x1024 .bf16) (bb : Vec Ideal S1024 .f32) (P : Fin 2048) (p : Fin 512) (q : Fin 1024)
    (h0 : ∀ k, x0 (ix2 p k) = A (ix2 P k)) (h1 : ∀ r' k, w (ix2 r' k) = W (ix2 r' k)) (h2 : ∀ r', bb (ix1 r') = b (ix1 r')) :
    (∑ k : Fin 1024, x0 (ix2 p k) * w (ix2 q k)) + bb (ix1 q) = lin2 A W b (ix2 P q) := by
  unfold lin2
  rw [h2]
  refine congrArg (· + _) (Finset.sum_congr rfl fun k _ => ?_)
  rw [h0, h1]

/-- What point `t` writes back is block `t` of the function. -/
theorem flushed2_3_eq (c : Dev nD) (t : Fin cfg2.N) :
    (dat2 (F := Ideal) V c).flushed 3 t
      = ((cfg2.win 3).blk t).view.read (Elt Ideal) (lin2 (V c main_v5) (V c main_v3) (V c main_arg8)) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S1024x1024) hz2, View.ld_unit_zero (S := S1024) hz1]
  funext y
  obtain ⟨p, q, rfl⟩ : ∃ (p : Fin 512) (q : Fin 1024), y = ix2 p q := ⟨y 0, y 1, eq_ix2 y⟩
  show k2_pay1 (F := Ideal) (iblk2 V c 0 t) (iblk2 V c 1 t) (iblk2 V c 2 t) (ix2 p q)
      = lin2 (V c main_v5) (V c main_v3) (V c main_arg8) (((cfg2.win 3).blk t).view.emb (ix2 p q))
  refine (Cert.KernelIdeal.Pay.k2_pay1_apply (iblk2 V c 0 t) (iblk2 V c 1 t) (iblk2 V c 2 t) p q).trans ?_
  refine (lin2_at (V c main_v5) (V c main_v3) (V c main_arg8) (iblk2 V c 0 t) (iblk2 V c 1 t) (iblk2 V c 2 t) (rowAt t p) p q
    (blk2_0 V c t p) (blk2_1 V c t) (blk2_2 V c t)).trans (congrArg (lin2 (V c main_v5) (V c main_v3) (V c main_arg8)) (funext fun a => Fin.ext ?_))
  obtain ⟨-, -, -, -, -, e5, e6⟩ := idx2 t
  match a with
  | ⟨0, _⟩ => show t.val * 512 + p.val = win2_3.index t (0 : Fin 2) * 512 + 1 * p.val; omega
  | ⟨1, _⟩ => show q.val = win2_3.index t (1 : Fin 2) * 1024 + 1 * q.val; omega

theorem mem_blk2_3 (t : Fin cfg2.N) (i : S2048x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v6).slice (win2_3.rect t)).set ↔ _
  rw [View.set_slice_whole, Rect.mem_set_unit]
  exact Iff.rfl

/-- Every row lies in the block of the point `row / 512`. -/
theorem cover2_3 (i : S2048x1024.Idx) : ∃ t : Fin cfg2.N, (cfg2.win 3).flush t = true ∧ i ∈ ((cfg2.win 3).blk t).view.set := by
  have hi0 : (i 0).val < 2048 := (i 0).isLt
  have hi1 : (i 1).val < 1024 := (i 1).isLt
  let t : Fin cfg2.N := ⟨(i 0).val / 512, by rw [show cfg2.N = 4 from N_2]; omega⟩
  refine ⟨t, flush2_3 t, ?_⟩
  rw [mem_blk2_3]
  have ht : t.val = (i 0).val / 512 := rfl
  have e := idx2 t
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- THE ARRAY after the call: the function of the three input arrays. -/
theorem final2_3 (c : Dev nD) :
    (dat2 (F := Ideal) V c).arrAt 3 cfg2.N = lin2 (V c main_v5) (V c main_v3) (V c main_arg8) :=
  (dat2 (F := Ideal) V c).arrAt_eq_of_cover 3 _ (fun t _ => flushed2_3_eq V c t) cover2_3

end Cert.KernelIdeal.Val2

end
-- ==== Proof.LibCurry.lean ====
/-
  Arrays of rank one and two as functions of their coordinates, and back.

  An [a, b] array is a function of one index; `cur2` reads it as a function of the two coordinates and `unc2`
  builds the array from such a function.  The two are inverse to each other.  `cur1` is the same for an [a]
  array, and `row` reads the single row of a [1, a] array as a function of the column.
-/
import Idealize.ShloMosaic.PureOps.Ideal
import Idealize.ShloMosaic.Lib.ValueIdx

noncomputable section

namespace Cert.Lib

open Idealize.ShloMosaic Idealize.ShloMosaic.ValueIdx

/-- An [a, b] array as a function of its two coordinates. -/
def cur2 {a b : Nat} (f : FVec Ideal ⟨2, ![a, b]⟩ .f32) (r : Fin a) (k : Fin b) : EReal := f (ix2 r k)

/-- The [a, b] array of a function of two coordinates. -/
def unc2 {a b : Nat} (g : Fin a → Fin b → EReal) : FVec Ideal ⟨2, ![a, b]⟩ .f32 := fun i => g (i 0) (i 1)

/-- An [a] array as a function of its coordinate. -/
def cur1 {a : Nat} (f : FVec Ideal ⟨1, ![a]⟩ .f32) (j : Fin a) : EReal := f (ix1 j)

/-- The one row of a [1, a] array as a function of the column. -/
def row {a : Nat} (f : FVec Ideal ⟨2, ![1, a]⟩ .f32) (j : Fin a) : EReal := f (ix2 0 j)

theorem cur2_unc2 {a b : Nat} (g : Fin a → Fin b → EReal) : cur2 (unc2 g) = g := rfl

theorem unc2_cur2 {a b : Nat} (f : FVec Ideal ⟨2, ![a, b]⟩ .f32) : unc2 (cur2 f) = f := by
  funext i
  exact (congrArg f (eq_ix2 i)).symm

/-- Two [a, b] arrays with the same entries are equal. -/
theorem ext2 {a b : Nat} {f g : FVec Ideal ⟨2, ![a, b]⟩ .f32} (h : cur2 f = cur2 g) : f = g := by
  rw [← unc2_cur2 f, ← unc2_cur2 g, h]

end Cert.Lib

end
-- ==== Proof.KIValue.lean ====
/-
  The kernel program's result is the specification. The last contents of the result buffer are what the output
  projection leaves: rows of the attention output against the output weight, plus the output bias. The attention
  output is what the attention kernel leaves from the three projected arrays, and each of those is what the fused
  projection leaves from the input rows and one band of the stacked weight and bias — the band being, by the host
  operations that stacked them, the query, key or value weight and bias themselves.
-/
import proofs.«127907_j34505767256262_2_alg».proof.Proof.KIRun
import proofs.«127907_j34505767256262_2_alg».proof.Proof.KIKept
import proofs.«127907_j34505767256262_2_alg».proof.Proof.KIHost
import proofs.«127907_j34505767256262_2_alg».proof.Proof.KIVal0
import proofs.«127907_j34505767256262_2_alg».proof.Proof.KIVal1
import proofs.«127907_j34505767256262_2_alg».proof.Proof.KIVal2
import proofs.«127907_j34505767256262_2_alg».proof.Proof.Spec
import proofs.«127907_j34505767256262_2_alg».proof.Proof.LibCurry

set_option maxRecDepth 16384

noncomputable section

namespace Cert.KernelIdeal.Value

open Cert.KernelIdeal Cert.KernelIdeal.Gen Cert.KernelIdeal.Fr
open Idealize.ShloMosaic Idealize.ShloMosaic.TcCoe Idealize.ShloMosaic.ValueIdx
open Idealize.SL.Sem
open Cert.KernelIdeal.Val Cert.KernelIdeal.Val1 Cert.KernelIdeal.Val2 Cert.Lib

/-- A band of the stacked projection is the linear layer of the weight and bias stacked there. -/
theorem lin_proj (r : Fin 1024 → Fin 3072) (X : S2048x1024.Idx → EReal) (Wst : S3072x1024.Idx → EReal) (bst : S3072.Idx → EReal)
    (X' : FVec Ideal ⟨2, ![2048, 1024]⟩ .f32) (W' : FVec Ideal ⟨2, ![1024, 1024]⟩ .f32) (b' : FVec Ideal ⟨1, ![1024]⟩ .f32)
    (hX : X = X') (hW : ∀ j k, Wst (ix2 (r j) k) = W' (ix2 j k)) (hb : ∀ j, bst (ix1 (r j)) = b' (ix1 j)) :
    c2 (lin r X Wst bst) = Cert.Spec.proj (cur2 X') (cur2 W') (cur1 b') := by
  subst hX
  funext s j
  show (∑ k : Fin 1024, X (ix2 s k) * Wst (ix2 (r j) k)) + bst (ix1 (r j)) = (∑ k : Fin 1024, X (ix2 s k) * W' (ix2 j k)) + b' (ix1 j)
  rw [hb]
  exact congrArg (· + _) (Finset.sum_congr rfl fun k _ => by rw [hW])

/-- The output projection is the linear layer of its weight and bias. -/
theorem lin2_proj (A : S2048x1024.Idx → EReal) (W : S1024x1024.Idx → EReal) (b : S1024.Idx → EReal)
    (W' : FVec Ideal ⟨2, ![1024, 1024]⟩ .f32) (b' : FVec Ideal ⟨1, ![1024]⟩ .f32) (hW : W = W') (hb : b = b') :
    c2 (lin2 A W b) = Cert.Spec.proj (c2 A) (cur2 W') (cur1 b') := by
  subst hW hb
  rfl

variable (m : (ℓ : Loc nD τ sig) → Buf (Elt Ideal) ℓ) (ρ : Dev nD → PrngReg) (c : Dev nD)

/-- THE RESULT: the last contents of the result buffer, at row `s` and column `j`, are the specification of the nine
    argument arrays. -/
theorem result_at (s : Fin 2048) (j : Fin 1024) :
    c2 (W4 (F := Ideal) m ρ c (Proc.devRef .tc main_v6)) s j
      = Cert.Spec.out (cur2 (m ((c : Thread nD τ).loc main_arg0))) (cur2 (m ((c : Thread nD τ).loc main_arg1))) (cur1 (m ((c : Thread nD τ).loc main_arg2)))
          (cur2 (m ((c : Thread nD τ).loc main_arg3))) (cur1 (m ((c : Thread nD τ).loc main_arg4)))
          (cur2 (m ((c : Thread nD τ).loc main_arg5))) (cur1 (m ((c : Thread nD τ).loc main_arg6)))
          (cur2 (m ((c : Thread nD τ).loc main_arg7))) (cur1 (m ((c : Thread nD τ).loc main_arg8))) s j := by
  have e0 : W2 (F := Ideal) m ρ c (Proc.devRef .tc main_v4_0) = lin rowQ (V1 m ρ c main_arg0) (V1 m ρ c main_v1) (V1 m ρ c main_v2) :=
    (W2_arr m ρ c 3).trans (final0_3 (V1 m ρ) c)
  have e1 : W2 (F := Ideal) m ρ c (Proc.devRef .tc main_v4_1) = lin rowK (V1 m ρ c main_arg0) (V1 m ρ c main_v1) (V1 m ρ c main_v2) :=
    (W2_arr m ρ c 4).trans (final0_4 (V1 m ρ) c)
  have e2 : W2 (F := Ideal) m ρ c (Proc.devRef .tc main_v4_2) = lin rowV (V1 m ρ c main_arg0) (V1 m ρ c main_v1) (V1 m ρ c main_v2) :=
    (W2_arr m ρ c 5).trans (final0_5 (V1 m ρ) c)
  have eA : W3 (F := Ideal) m ρ c (Proc.devRef .tc main_v5) = attnArr (V2 m ρ c main_v4_0) (V2 m ρ c main_v4_1) (V2 m ρ c main_v4_2) :=
    (W3_arr m ρ c 3).trans (final1_3 (V2 m ρ) c)
  have eO : W4 (F := Ideal) m ρ c (Proc.devRef .tc main_v6) = lin2 (V3 m ρ c main_v5) (V3 m ρ c main_v3) (V3 m ρ c main_arg8) :=
    (W4_arr m ρ c 3).trans (final2_3 (V3 m ρ) c)
  have eWo : (V3 (F := Ideal) m ρ c main_v3 : S1024x1024.Idx → EReal) = m ((c : Thread nD τ).loc main_arg7) :=
    (W3_of_ne m ρ c main_v3 (by decide)).trans ((W2_of_ne m ρ c main_v3 (by decide)).trans (Cert.KernelIdeal.Host.w_o m ρ c))
  have ebo : (V3 (F := Ideal) m ρ c main_arg8 : S1024.Idx → EReal) = m ((c : Thread nD τ).loc main_arg8) :=
    (W3_of_ne m ρ c main_arg8 (by decide)).trans ((W2_of_ne m ρ c main_arg8 (by decide)).trans (Cert.KernelIdeal.Host.kept_arg8 m ρ c))
  have hq := (congrArg c2 e0).trans (lin_proj rowQ _ _ _ _ _ _ (Cert.KernelIdeal.Host.kept_arg0 m ρ c) (Cert.KernelIdeal.Host.w_q m ρ c) (Cert.KernelIdeal.Host.b_q m ρ c))
  have hk := (congrArg c2 e1).trans (lin_proj rowK _ _ _ _ _ _ (Cert.KernelIdeal.Host.kept_arg0 m ρ c) (Cert.KernelIdeal.Host.w_k m ρ c) (Cert.KernelIdeal.Host.b_k m ρ c))
  have hv := (congrArg c2 e2).trans (lin_proj rowV _ _ _ _ _ _ (Cert.KernelIdeal.Host.kept_arg0 m ρ c) (Cert.KernelIdeal.Host.w_v m ρ c) (Cert.KernelIdeal.Host.b_v m ρ c))
  have ha : c2 (V3 (F := Ideal) m ρ c main_v5) = Cert.Spec.attn (c2 (V2 m ρ c main_v4_0)) (c2 (V2 m ρ c main_v4_1)) (c2 (V2 m ρ c main_v4_2)) :=
    congrArg c2 eA
  have ho := (congrArg c2 eO).trans (lin2_proj _ _ _ _ _ eWo ebo)
  rw [ho, ha]
  unfold Cert.Spec.out
  exact congrFun (congrFun (congrArg (fun A => Cert.Spec.proj A _ _) (by rw [hq, hk, hv])) s) j

end Cert.KernelIdeal.Value

end
-- ==== Proof.LibLaneFold.lean ====
/-
  Reductions along the last axis, read at one index, for any extents.

  A host reduction of an [a, b] array along axis 1 by a commutative and associative operation holds, at row
  p, the fold of the operation from the initial value over the entries (p, k), k < b. A kernel's minimum or
  maximum reduction of an [a, b, c] array along axis 2, from the value a starting word denotes, holds at
  (p, q) the fold of `min` or `max` from that value over the entries (p, q, k), k < c. Each holds for
  arbitrary proofs of the operation's side conditions and depends on no program.
-/
import Idealize.ShloMosaic.Lib.ValueIdx
import Idealize.ShloMosaic.PureOps.Ideal.Laws
import Idealize.ShloMosaic.PureOps.Reduce

noncomputable section

namespace Cert.LaneFold

open Idealize.ShloMosaic Idealize.ShloMosaic.ValueIdx

/-- Row p of an [a, b] array with column k put back is (p, k). -/
theorem lift_row {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- Line (p, q) of an [a, b, c] array with lane k put back is (p, q, k). -/
theorem lift_lane {a b c : ℕ} (h : (⟨3, ![a, b, c]⟩ : Shape).Reduces [2] ⟨2, ![a, b]⟩) (p : Fin a) (q : Fin b) (k : Fin c) :
    h.lift (ix2 p q) k = ix3 p q k := by
  funext d; apply Fin.ext
  match d with
  | ⟨0, _⟩ => rfl
  | ⟨1, _⟩ => rfl
  | ⟨2, _⟩ => rfl

/-- A host reduction of an [a, b] array along axis 1, at row p: the fold over that row from the initial value. -/
theorem host_row_fold {a b : ℕ} {u : Shape} {α : Type} (f : α → α → α) [Std.Commutative f] [Std.Associative f]
    (v : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce f v init h' hu (ix1 p)
      = (Finset.univ : Finset (Fin b)).fold f (init (Shape.Idx.first hu)) fun k => v (ix2 p k) :=
  (Host.reduce_eq_fold_single f v init h' h hu (ix1 p)).trans
    (congrArg (fun g => Finset.fold f (init (Shape.Idx.first hu)) g (Finset.univ : Finset (Fin b)))
      (funext fun k => congrArg v (lift_row h p k)))

/-- A kernel's maximum along the last axis of an [a, b, c] array, at (p, q): the fold of `max` over that line. -/
theorem lane_max {a b c : ℕ} (v : FVec Ideal ⟨3, ![a, b, c]⟩ .f32) (acc : BitVec (FTy.f32).bits)
    (h : (⟨3, ![a, b, c]⟩ : Shape).Reduces [2] ⟨2, ![a, b]⟩)
    (hφ : FKind.Formats .f32) (hacc : acc = FKind.maximumf.neutral .f32 hφ) (p : Fin a) (q : Fin b) :
    multiReduction .maximumf [2] ⟨2, ![a, b]⟩ v acc h hφ hacc (ix2 p q)
      = (Finset.univ : Finset (Fin c)).fold max (Ideal.ofBits .f32 acc) fun k => v (ix3 p q k) :=
  (Ideal.multiReduction_maximumf_single v acc h hφ hacc (ix2 p q)).trans
    (congrArg (fun g => Finset.fold max (Ideal.ofBits .f32 acc) g (Finset.univ : Finset (Fin c)))
      (funext fun k => congrArg v (lift_lane h p q k)))

/-- A kernel's minimum along the last axis of an [a, b, c] array, at (p, q): the fold of `min` over that line. -/
theorem lane_min {a b c : ℕ} (v : FVec Ideal ⟨3, ![a, b, c]⟩ .f32) (acc : BitVec (FTy.f32).bits)
    (h : (⟨3, ![a, b, c]⟩ : Shape).Reduces [2] ⟨2, ![a, b]⟩)
    (hφ : FKind.Formats .f32) (hacc : acc = FKind.minimumf.neutral .f32 hφ) (p : Fin a) (q : Fin b) :
    multiReduction .minimumf [2] ⟨2, ![a, b]⟩ v acc h hφ hacc (ix2 p q)
      = (Finset.univ : Finset (Fin c)).fold min (Ideal.ofBits .f32 acc) fun k => v (ix3 p q k) :=
  ((multiReduction_minimumf_eq_fold v acc h hφ hacc (ix2 p q)).trans
      (h.fold_filter_drop_single _ _ v (ix2 p q))).trans
    (congrArg (fun g => Finset.fold min (Ideal.ofBits .f32 acc) g (Finset.univ : Finset (Fin c)))
      (funext fun k => congrArg v (lift_lane h p q k)))

end Cert.LaneFold

end
-- ==== Proof.LibHostLaneFold.lean ====
/-
  A host reduction along the last axis of a rank-3 array, read at one index, for any extents.

  A host reduction of an [a, b, c] array along axis 2 by a commutative and associative operation holds, at (p, q), the
  fold of the operation from the initial value over the entries (p, q, k), k < c. It holds for arbitrary proofs of the
  operation's side conditions and depends on no program.
-/
import proofs.«127907_j34505767256262_2_alg».proof.Proof.LibLaneFold

noncomputable section

namespace Cert.HostLaneFold

open Idealize.ShloMosaic Idealize.ShloMosaic.ValueIdx

/-- A host reduction of an [a, b, c] array along axis 2, at (p, q): the fold over that line from the initial value. -/
theorem host_lane_fold {a b c : ℕ} {u : Shape} {α : Type} (f : α → α → α) [Std.Commutative f] [Std.Associative f]
    (v : (⟨3, ![a, b, c]⟩ : Shape).Idx → α) (init : u.Idx → α)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce f v init h' hu (ix2 p q)
      = (Finset.univ : Finset (Fin c)).fold f (init (Shape.Idx.first hu)) fun k => v (ix3 p q k) :=
  (Host.reduce_eq_fold_single f v init h' h hu (ix2 p q)).trans
    (congrArg (fun g => Finset.fold f (init (Shape.Idx.first hu)) g (Finset.univ : Finset (Fin c)))
      (funext fun k => congrArg v (Cert.LaneFold.lift_lane h p q k)))

end Cert.HostLaneFold

end
-- ==== Proof.RefIsSpec.lean ====
/-
  The reference program computes multi-head attention as the specification states it.

  Stage by stage: the three linear layers are sums over the shared width plus a bias; splitting the width into
  sixteen heads of sixty-four lanes sends (head h, lane d) to column 64h + d; the scaled scores, the row maxima, the
  exponentials, the row totals and the weights follow the specification's definitions term by term; the weighted
  sums of the value rows, laid side by side, are the attention rows; the last linear layer is applied to them.
-/
import proofs.«127907_j34505767256262_2_alg».proof.Proof.Gen.ReferenceIdeal.Read
import proofs.«127907_j34505767256262_2_alg».proof.Proof.Spec
import proofs.«127907_j34505767256262_2_alg».proof.Proof.LibCurry
import proofs.«127907_j34505767256262_2_alg».proof.Proof.LibHostLaneFold

noncomputable section

namespace Cert.RefSide

open Cert.ReferenceIdeal Cert.ReferenceIdeal.Gen Cert.ReferenceIdeal.Read Idealize.ShloMosaic Idealize.ShloMosaic.ValueIdx
open Cert.Lib

/-- The contents of an f32 array of shape `s` at the ideal instance. -/
abbrev Arr (s : Shape) : Type := (⟨s, .f32⟩ : BufTy).Contents (Elt Ideal)

/-! ## A linear layer -/

/-- A linear layer of the program, at row `s` and column `j`: the row of the input against row `j` of the weights,
    plus the bias at `j`. -/
theorem proj_eq (y : Arr S2048x1024) (W : Arr S1024x1024) (b : Arr S1024) (s : Fin 2048) (j : Fin 1024) :
    val_main_v4 (F := Ideal) y W b (ix2 s j) = Cert.Spec.proj (cur2 y) (cur2 W) (cur1 b) s j := by
  rw [val_main_v4_apply, val_main_v1_apply, val_main_v3_apply, val_main_v2_apply, Ideal.addf_def]
  unfold Cert.Spec.proj
  congr 1
  · refine Finset.sum_congr rfl fun k _ => ?_
    rw [val_main_v0_apply]
    have e1 : lidx_main_v1 (ix2 s j) k = ix2 s k := funext fun a => by
      match a with
      | ⟨0, _⟩ => rfl
      | ⟨1, _⟩ => rfl
    have e2 : idx_main_v0 (ridx_main_v1 (ix2 s j) k) = ix2 j k := funext fun a => by
      match a with
      | ⟨0, _⟩ => rfl
      | ⟨1, _⟩ => rfl
    rw [e1, e2]
    rfl
  · exact congrArg b (funext fun a => by
      match a with
      | ⟨0, _⟩ => rfl)

/-! ## The heads -/

/-- Lane `d` of head `h` at row `s` is column `64h + d` of the layer's row `s`. -/
theorem head_eq (x0 : Arr S2048x1024) (W : Arr S1024x1024) (b : Arr S1024) (h : Fin 16) (s : Fin 2048) (d : Fin 64) :
    val_main_v6 (F := Ideal) x0 W b (ix3 h s d) = val_main_v4 (F := Ideal) x0 W b (ix2 s (Cert.Spec.col h d)) := by
  rw [val_main_v6_apply, val_main_v5_apply]
  refine congrArg _ (funext fun a => Fin.ext ?_)
  have hh : h.val < 16 := h.isLt
  have hd : d.val < 64 := d.isLt
  match a with
  | ⟨0, _⟩ =>
    show ((s.val * 16 + h.val) * 64 + d.val) / 1024 = s.val
    omega
  | ⟨1, _⟩ =>
    show ((s.val * 16 + h.val) * 64 + d.val) % 1024 = h.val * 64 + d.val
    omega

/-- The key heads and the value heads are the same function of their layer's weights and bias as the query heads. -/
theorem v13_eq (x0 : Arr S2048x1024) (W : Arr S1024x1024) (b : Arr S1024) :
    val_main_v13 (F := Ideal) x0 W b = val_main_v6 (F := Ideal) x0 W b := rfl
theorem v20_eq (x0 : Arr S2048x1024) (W : Arr S1024x1024) (b : Arr S1024) :
    val_main_v20 (F := Ideal) x0 W b = val_main_v6 (F := Ideal) x0 W b := rfl

/-! ## The scaled scores -/

/-- The pattern of the scale's constant denotes 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- The divisor of the scores is 8 everywhere. -/
theorem v23_eq (i : S16x2048x2048.Idx) : val_main_v23 (F := Ideal) i = ((8 : ℝ) : EReal) := by
  rw [val_main_v23_apply, val_main_v22_apply, val_main_cst_apply, Ideal.hostUnary_sqrt_def, Ideal.ofBits_def,
    ofBits_64, sqrt_64]

/-- The scaled score of head `h`, query row `s`, key row `t`. -/
theorem score_eq (x0 : Arr S2048x1024) (x1 : Arr S1024x1024) (x2 : Arr S1024) (x3 : Arr S1024x1024) (x4 : Arr S1024)
    (h : Fin 16) (s t : Fin 2048) :
    val_main_v24 (F := Ideal) x0 x1 x2 x3 x4 (ix3 h s t)
      = Cert.Spec.score (Cert.Spec.proj (cur2 x0) (cur2 x1) (cur1 x2)) (Cert.Spec.proj (cur2 x0) (cur2 x3) (cur1 x4)) h s t := by
  rw [val_main_v24_apply, v23_eq, Ideal.hostDivf_def, Ideal.div_coe (by norm_num), val_main_v21_apply]
  unfold Cert.Spec.score
  congr 1
  refine Finset.sum_congr rfl fun d _ => ?_
  have e1 : lidx_main_v21 (ix3 h s t) d = ix3 h s d := funext fun a => by
    match a with
    | ⟨0, _⟩ => rfl
    | ⟨1, _⟩ => rfl
    | ⟨2, _⟩ => rfl
  have e2 : ridx_main_v21 (ix3 h s t) d = ix3 h t d := funext fun a => by
    match a with
    | ⟨0, _⟩ => rfl
    | ⟨1, _⟩ => rfl
    | ⟨2, _⟩ => rfl
  rw [e1, e2, v13_eq, head_eq, head_eq, proj_eq, proj_eq]

/-! ## The row maxima -/

/-- The pattern of the reductions' starting value denotes −∞. -/
theorem ofBits_neg_inf : Ideal.ofBits .f32 0xFF800000#32 = ⊥ := by simp [Ideal.ofBits, Ideal.ieee]

/-- The largest scaled score of head `h`, query row `s`. -/
theorem rowMax_eq (x0 : Arr S2048x1024) (x1 : Arr S1024x1024) (x2 : Arr S1024) (x3 : Arr S1024x1024) (x4 : Arr S1024)
    (h : Fin 16) (s : Fin 2048) :
    val_main_v27 (F := Ideal) x0 x1 x2 x3 x4 (ix2 h s)
      = Cert.Spec.rowMax (Cert.Spec.proj (cur2 x0) (cur2 x1) (cur1 x2)) (Cert.Spec.proj (cur2 x0) (cur2 x3) (cur1 x4)) h s := by
  rw [val_main_v27_apply, val_main_v26_apply, val_main_cst_1_apply, Ideal.maximumf_def, Ideal.ofBits_def, ofBits_neg_inf,
    max_eq_right bot_le]
  unfold val_main_v25
  rw [Cert.HostLaneFold.host_lane_fold (FloatOps.maximumf (F := Ideal) (φ := .f32)) (val_main_v24 (F := Ideal) x0 x1 x2 x3 x4)
    (val_main_cst_0 (F := Ideal)) reducesTo_S16x2048x2048_S16x2048_d2 (by decide) h_S_ h s,
    val_main_cst_0_apply, Ideal.ofBits_def, ofBits_neg_inf]
  unfold Cert.Spec.rowMax
  exact congrArg (fun g => Finset.fold max ⊥ g (Finset.univ : Finset (Fin 2048)))
    (funext fun t => score_eq x0 x1 x2 x3 x4 h s t)

/-! ## Exponentials, row totals, weights -/

/-- The row maximum spread along the key axis. -/
theorem v29_eq (x0 : Arr S2048x1024) (x1 : Arr S1024x1024) (x2 : Arr S1024) (x3 : Arr S1024x1024) (x4 : Arr S1024)
    (h : Fin 16) (s t : Fin 2048) :
    val_main_v29 (F := Ideal) x0 x1 x2 x3 x4 (ix3 h s t) = val_main_v27 (F := Ideal) x0 x1 x2 x3 x4 (ix2 h s) := by
  rw [val_main_v29_apply, val_main_v28_apply]
  exact congrArg _ (funext fun a => by
    match a with
    | ⟨0, _⟩ => rfl
    | ⟨1, _⟩ => rfl)

/-- The exponential of a score less its row's maximum. -/
theorem expo_eq (x0 : Arr S2048x1024) (x1 : Arr S1024x1024) (x2 : Arr S1024) (x3 : Arr S1024x1024) (x4 : Arr S1024)
    (h : Fin 16) (s t : Fin 2048) :
    val_main_v31 (F := Ideal) x0 x1 x2 x3 x4 (ix3 h s t)
      = Cert.Spec.expo (Cert.Spec.proj (cur2 x0) (cur2 x1) (cur1 x2)) (Cert.Spec.proj (cur2 x0) (cur2 x3) (cur1 x4)) h s t := by
  rw [val_main_v31_apply, val_main_v30_apply, Ideal.hostUnary_exp_def, Ideal.subf_def, v29_eq, score_eq, rowMax_eq]
  rfl

/-- The total of a row's exponentials. -/
theorem denom_eq (x0 : Arr S2048x1024) (x1 : Arr S1024x1024) (x2 : Arr S1024) (x3 : Arr S1024x1024) (x4 : Arr S1024)
    (h : Fin 16) (s : Fin 2048) :
    val_main_v32 (F := Ideal) x0 x1 x2 x3 x4 (ix2 h s)
      = Cert.Spec.denom (Cert.Spec.proj (cur2 x0) (cur2 x1) (cur1 x2)) (Cert.Spec.proj (cur2 x0) (cur2 x3) (cur1 x4)) h s := by
  rw [val_main_v32_apply, val_main_cst_2_apply, Ideal.ofBits_def, Ideal.ofBits_zero_f32, zero_add]
  unfold Cert.Spec.denom
  refine Finset.sum_congr rfl fun t _ => ?_
  have e : idx_main_v32 (ix2 h s) t = ix3 h s t := funext fun a => by
    match a with
    | ⟨0, _⟩ => rfl
    | ⟨1, _⟩ => rfl
    | ⟨2, _⟩ => rfl
  rw [e, expo_eq]

/-- The attention weight of key row `t` for query row `s`. -/
theorem weight_eq (x0 : Arr S2048x1024) (x1 : Arr S1024x1024) (x2 : Arr S1024) (x3 : Arr S1024x1024) (x4 : Arr S1024)
    (h : Fin 16) (s t : Fin 2048) :
    val_main_v35 (F := Ideal) x0 x1 x2 x3 x4 (ix3 h s t)
      = Cert.Spec.weight (Cert.Spec.proj (cur2 x0) (cur2 x1) (cur1 x2)) (Cert.Spec.proj (cur2 x0) (cur2 x3) (cur1 x4)) h s t := by
  rw [val_main_v35_apply, Ideal.hostDivf_def, val_main_v34_apply, val_main_v33_apply]
  have e : idx_main_v33 (idx_main_v34 (ix3 h s t)) = ix2 h s := funext fun a => by
    match a with
    | ⟨0, _⟩ => rfl
    | ⟨1, _⟩ => rfl
  rw [e, expo_eq, denom_eq]
  rfl

/-! ## The weighted sums of the value rows -/

/-- Lane `d` of head `h`'s output row `s`: the weighted sum of column `64h + d` of the value rows. -/
theorem ctx_eq (x0 : Arr S2048x1024) (x1 : Arr S1024x1024) (x2 : Arr S1024) (x3 : Arr S1024x1024) (x4 : Arr S1024)
    (x5 : Arr S1024x1024) (x6 : Arr S1024) (h : Fin 16) (s : Fin 2048) (d : Fin 64) :
    val_main_v36 (F := Ideal) x0 x1 x2 x3 x4 x5 x6 (ix3 h s d)
      = ∑ t : Fin 2048,
          Cert.Spec.weight (Cert.Spec.proj (cur2 x0) (cur2 x1) (cur1 x2)) (Cert.Spec.proj (cur2 x0) (cur2 x3) (cur1 x4)) h s t
            * Cert.Spec.proj (cur2 x0) (cur2 x5) (cur1 x6) t (Cert.Spec.col h d) := by
  rw [val_main_v36_apply]
  refine Finset.sum_congr rfl fun t _ => ?_
  have e1 : lidx_main_v36 (ix3 h s d) t = ix3 h s t := funext fun a => by
    match a with
    | ⟨0, _⟩ => rfl
    | ⟨1, _⟩ => rfl
    | ⟨2, _⟩ => rfl
  have e2 : ridx_main_v36 (ix3 h s d) t = ix3 h t d := funext fun a => by
    match a with
    | ⟨0, _⟩ => rfl
    | ⟨1, _⟩ => rfl
    | ⟨2, _⟩ => rfl
  rw [e1, e2, weight_eq, v20_eq, head_eq, proj_eq]

/-- The heads' outputs side by side: column `j` belongs to head `j / 64`, lane `j % 64`. -/
theorem attn_eq (x0 : Arr S2048x1024) (x1 : Arr S1024x1024) (x2 : Arr S1024) (x3 : Arr S1024x1024) (x4 : Arr S1024)
    (x5 : Arr S1024x1024) (x6 : Arr S1024) (s : Fin 2048) (j : Fin 1024) :
    val_main_v38 (F := Ideal) x0 x1 x2 x3 x4 x5 x6 (ix2 s j)
      = Cert.Spec.attn (Cert.Spec.proj (cur2 x0) (cur2 x1) (cur1 x2)) (Cert.Spec.proj (cur2 x0) (cur2 x3) (cur1 x4))
          (Cert.Spec.proj (cur2 x0) (cur2 x5) (cur1 x6)) s j := by
  rw [val_main_v38_apply, val_main_v37_apply]
  have e : idx_main_v37 (idx_main_v38 (ix2 s j)) = ix3 (Cert.Spec.headOf j) s (Cert.Spec.laneOf j) :=
    funext fun a => Fin.ext (by
      have hj : j.val < 1024 := j.isLt
      match a with
      | ⟨0, _⟩ =>
        show (s.val * 1024 + j.val) / 64 % 16 = j.val / 64
        omega
      | ⟨1, _⟩ =>
        show (s.val * 1024 + j.val) / 1024 = s.val
        omega
      | ⟨2, _⟩ =>
        show (s.val * 1024 + j.val) % 64 = j.val % 64
        omega)
  rw [e, ctx_eq, Cert.Spec.col_headOf_laneOf]
  rfl

/-! ## The output layer -/

/-- The output layer is the same function of the attention rows and its own weights and bias as the query layer is
    of the input. -/
theorem v43_eq (x0 : Arr S2048x1024) (x1 : Arr S1024x1024) (x2 : Arr S1024) (x3 : Arr S1024x1024) (x4 : Arr S1024)
    (x5 : Arr S1024x1024) (x6 : Arr S1024) (x7 : Arr S1024x1024) (x8 : Arr S1024) :
    val_main_v43 (F := Ideal) x0 x1 x2 x3 x4 x5 x6 x7 x8
      = val_main_v4 (F := Ideal) (val_main_v38 (F := Ideal) x0 x1 x2 x3 x4 x5 x6) x7 x8 := rfl

/-- The reference program's result at row `s`, column `j` is the specification's. -/
theorem ref_eq (x0 : (⟨Cert.ReferenceIdeal.S2048x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (s : Fin 2048) (j : Fin 1024) :
    Cert.ReferenceIdeal.Read.val_main_v43 (F := Ideal) x0 x1 x2 x3 x4 x5 x6 x7 x8 (ValueIdx.ix2 s j)
      = Cert.Spec.out (Cert.Lib.cur2 x0) (Cert.Lib.cur2 x1) (Cert.Lib.cur1 x2) (Cert.Lib.cur2 x3) (Cert.Lib.cur1 x4)
          (Cert.Lib.cur2 x5) (Cert.Lib.cur1 x6) (Cert.Lib.cur2 x7) (Cert.Lib.cur1 x8) s j := by
  rw [v43_eq, proj_eq]
  have e : cur2 (val_main_v38 (F := Ideal) x0 x1 x2 x3 x4 x5 x6)
      = Cert.Spec.attn (Cert.Spec.proj (cur2 x0) (cur2 x1) (cur1 x2)) (Cert.Spec.proj (cur2 x0) (cur2 x3) (cur1 x4))
          (Cert.Spec.proj (cur2 x0) (cur2 x5) (cur1 x6)) :=
    funext fun s' => funext fun j' => attn_eq x0 x1 x2 x3 x4 x5 x6 s' j'
  rw [e]
  rfl

end Cert.RefSide

end
-- ==== Proof.lean ====
/-
  The certificate's five claims for a multi-head attention layer (2048 rows, width 1024, sixteen heads of width 64).
  The kernel program stacks the query, key and value weights, runs a fused projection kernel, an attention kernel
  and an output-projection kernel; the reference computes the same layer with whole-array operations.
  * Each program runs to the end without a fault and leaves its arguments unchanged: for the two kernel programs
    this is read off the run of their four items (host operations, then three kernel calls); for the reference off
    its run as a line of host operations.
  * The idealized kernel program is the word-level one read over the extended reals: nothing was rewritten.
  * Over the extended reals both programs end with the same result: the specification `Cert.Spec.out` of the nine
    argument arrays. On the kernel side the projection bands, the per-head weights and the output projection are
    read block by block off the kernels' stores; on the reference side operation by operation. The two spellings
    differ only where extended-real arithmetic does not care: a product with 1/8 against a quotient by √64, a
    maximum started from −∞ once or twice, sums taken in another order.
-/
import proofs.«127907_j34505767256262_2_alg».proof.Defs
import proofs.«127907_j34505767256262_2_alg».proof.Proof.Gen.Kernel
import proofs.«127907_j34505767256262_2_alg».proof.Proof.Gen.KernelIdeal
import proofs.«127907_j34505767256262_2_alg».proof.Proof.Gen.ReferenceIdeal
import proofs.«127907_j34505767256262_2_alg».proof.Proof.Gen.Pre_finite_inputs
import proofs.«127907_j34505767256262_2_alg».proof.Proof.Gen.ReferenceIdeal.Run
import proofs.«127907_j34505767256262_2_alg».proof.Proof.KKept
import proofs.«127907_j34505767256262_2_alg».proof.Proof.KIKept
import proofs.«127907_j34505767256262_2_alg».proof.Proof.KIValue
import proofs.«127907_j34505767256262_2_alg».proof.Proof.RefIsSpec
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification of the arguments in their result buffers. -/
theorem algebraic : Cert.algebraic_KernelIdeal_ReferenceIdeal := by
  intro m ρ m' ρ' _ hagree
  refine ⟨fun c => fun i => Cert.Spec.out
      (Cert.Lib.cur2 (m ((c.tc : Thread Cert.KernelIdeal.nD Cert.KernelIdeal.τ).loc Cert.KernelIdeal.main_arg0)))
      (Cert.Lib.cur2 (m ((c.tc : Thread Cert.KernelIdeal.nD Cert.KernelIdeal.τ).loc Cert.KernelIdeal.main_arg1)))
      (Cert.Lib.cur1 (m ((c.tc : Thread Cert.KernelIdeal.nD Cert.KernelIdeal.τ).loc Cert.KernelIdeal.main_arg2)))
      (Cert.Lib.cur2 (m ((c.tc : Thread Cert.KernelIdeal.nD Cert.KernelIdeal.τ).loc Cert.KernelIdeal.main_arg3)))
      (Cert.Lib.cur1 (m ((c.tc : Thread Cert.KernelIdeal.nD Cert.KernelIdeal.τ).loc Cert.KernelIdeal.main_arg4)))
      (Cert.Lib.cur2 (m ((c.tc : Thread Cert.KernelIdeal.nD Cert.KernelIdeal.τ).loc Cert.KernelIdeal.main_arg5)))
      (Cert.Lib.cur1 (m ((c.tc : Thread Cert.KernelIdeal.nD Cert.KernelIdeal.τ).loc Cert.KernelIdeal.main_arg6)))
      (Cert.Lib.cur2 (m ((c.tc : Thread Cert.KernelIdeal.nD Cert.KernelIdeal.τ).loc Cert.KernelIdeal.main_arg7)))
      (Cert.Lib.cur1 (m ((c.tc : Thread Cert.KernelIdeal.nD Cert.KernelIdeal.τ).loc Cert.KernelIdeal.main_arg8))) (i 0) (i 1), ?_, ?_⟩
  · refine (θ_run Cert.KernelIdeal.defs _ _).mono (fun r h c => ⟨?_,
      (h c _ (Cert.KernelIdeal.Fr.mem_uc Cert.KernelIdeal.main_arg0 (by decide))).trans (Cert.KernelIdeal.Fr.W4_main_arg0 m ρ c),
      (h c _ (Cert.KernelIdeal.Fr.mem_uc Cert.KernelIdeal.main_arg1 (by decide))).trans (Cert.KernelIdeal.Fr.W4_main_arg1 m ρ c),
      (h c _ (Cert.KernelIdeal.Fr.mem_uc Cert.KernelIdeal.main_arg2 (by decide))).trans (Cert.KernelIdeal.Fr.W4_main_arg2 m ρ c),
      (h c _ (Cert.KernelIdeal.Fr.mem_uc Cert.KernelIdeal.main_arg3 (by decide))).trans (Cert.KernelIdeal.Fr.W4_main_arg3 m ρ c),
      (h c _ (Cert.KernelIdeal.Fr.mem_uc Cert.KernelIdeal.main_arg4 (by decide))).trans (Cert.KernelIdeal.Fr.W4_main_arg4 m ρ c),
      (h c _ (Cert.KernelIdeal.Fr.mem_uc Cert.KernelIdeal.main_arg5 (by decide))).trans (Cert.KernelIdeal.Fr.W4_main_arg5 m ρ c),
      (h c _ (Cert.KernelIdeal.Fr.mem_uc Cert.KernelIdeal.main_arg6 (by decide))).trans (Cert.KernelIdeal.Fr.W4_main_arg6 m ρ c),
      (h c _ (Cert.KernelIdeal.Fr.mem_uc Cert.KernelIdeal.main_arg7 (by decide))).trans (Cert.KernelIdeal.Fr.W4_main_arg7 m ρ c),
      (h c _ (Cert.KernelIdeal.Fr.mem_uc Cert.KernelIdeal.main_arg8 (by decide))).trans (Cert.KernelIdeal.Fr.W4_main_arg8 m ρ c)⟩)
      (Cert.KernelIdeal.Fr.run_all m ρ)
    refine (h c _ (Cert.KernelIdeal.Fr.mem_uc Cert.KernelIdeal.main_v6 (by decide))).trans (funext fun i => ?_)
    obtain ⟨s, j, rfl⟩ : ∃ (s : Fin 2048) (j : Fin 1024), i = ix2 s j := ⟨i 0, i 1, eq_ix2 i⟩
    exact Cert.KernelIdeal.Value.result_at m ρ c s j
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v43_eq]
    funext i
    obtain ⟨s, j, rfl⟩ : ∃ (s : Fin 2048) (j : Fin 1024), i = ix2 s j := ⟨i 0, i 1, eq_ix2 i⟩
    rw [Cert.RefSide.ref_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
